-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "floor_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x128 : Shape := ⟨2, ![128, 128]⟩
abbrev S2x128x128 : Shape := ⟨3, ![2, 128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S2x128x128 .f32) (main_arg5 : FVec F S128x128 .f32) (main_arg6 : FVec F S2x128x128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S128x128 .f32) (main_arg2 : FVec F S2x128x128 .f32) (main_arg3 : FVec F S128x128 .f32) (main_arg4 : FVec F S2x128x128 .f32) (main_arg5 : FVec F S128x128 .f32) (main_arg6 : FVec F S2x128x128 .f32) (main_arg7 : FVec F S128x128 .f32) (main_arg8 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S128x128 : Shape := ⟨2, ![128, 128]⟩
abbrev S2x128x128 : Shape := ⟨3, ![2, 128, 128]⟩
abbrev S128 : Shape := ⟨1, ![128]⟩
abbrev S1x1x128 : Shape := ⟨3, ![1, 1, 128]⟩
abbrev S1x128 : Shape := ⟨2, ![1, 128]⟩
abbrev S4096 : Shape := ⟨1, ![4096]⟩
abbrev S4096x1 : Shape := ⟨2, ![4096, 1]⟩

abbrev nBuf : Space → Nat
  | .hbm => 21
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S2x128x128, .f32⟩
  | .hbm, ⟨3, _⟩ => ⟨S128x128, .f32⟩
  | .hbm, ⟨4, _⟩ => ⟨S2x128x128, .f32⟩
  | .hbm, ⟨5, _⟩ => ⟨S128x128, .f32⟩
  | .hbm, ⟨6, _⟩ => ⟨S2x128x128, .f32⟩
  | .hbm, ⟨7, _⟩ => ⟨S128x128, .f32⟩
  | .hbm, ⟨8, _⟩ => ⟨S128, .f32⟩
  | .hbm, ⟨9, _⟩ => ⟨S1x1x128, .f32⟩
  | .hbm, ⟨10, _⟩ => ⟨S128, .f32⟩
  | .hbm, ⟨11, _⟩ => ⟨S1x128, .f32⟩
  | .hbm, ⟨12, _⟩ => ⟨S1x1x128, .f32⟩
  | .hbm, ⟨13, _⟩ => ⟨S128, .f32⟩
  | .hbm, ⟨14, _⟩ => ⟨S1x128, .f32⟩
  | .hbm, ⟨15, _⟩ => ⟨S1x1x128, .f32⟩
  | .hbm, ⟨16, _⟩ => ⟨S128, .f32⟩
  | .hbm, ⟨17, _⟩ => ⟨S1x128, .f32⟩
  | .hbm, ⟨18, _⟩ => ⟨S1x128, .f32⟩
  | .hbm, ⟨19, _⟩ => ⟨S4096x128, .f32⟩
  | .hbm, ⟨20, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S4096x128, .f32⟩
  | .local _ .vmem, ⟨10, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

class Facts₀ : Prop where
  slices_S2x128x128_S1x1x128_0_0_0 : S2x128x128.Slices ![0, 0, 0] S1x1x128
  shapeCasts_S1x1x128_S128 : S1x1x128.ShapeCasts S128
  bcast_S128_S1x128_1 : S128.BroadcastsInDim S1x128 (![1] : Fin 1 → Fin S1x128.rank)
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  dot_S4096x128_S4096x128_S128x128_0_0_1_1_n_n_wf : DotDims.WF S4096x128 S4096x128 S128x128 [0] [0] [1] [1] [] []
  dot_S128x128_S128x128_S128x128_1_0_0_1_n_n_wf : DotDims.WF S128x128 S128x128 S128x128 [1] [0] [0] [1] [] []
  dot_S4096x128_S128x128_S4096x128_1_0_0_1_n_n_wf : DotDims.WF S4096x128 S128x128 S4096x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v5) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_v8) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_v9) false false (stage0_8 0) (sem0_8 0) (Memref.isWhole_whole _) (hstage0_8 0)

abbrev win0_9 : Pipeline.Window sig grid0 :=
  Pipeline.Window.whole (Memref.whole main_v10_0) true false (stage0_9 0) (sem0_9 0) (Memref.isWhole_whole _) (hstage0_9 0)

abbrev win0_10 : Pipeline.Window sig grid0 :=
  Pipeline.Window.whole (Memref.whole main_v10_1) true false (stage0_10 0) (sem0_10 0) (Memref.isWhole_whole _) (hstage0_10 0)

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x128 : Shape := ⟨2, ![4096, 128]⟩
abbrev S128x128 : Shape := ⟨2, ![128, 128]⟩
abbrev S2x128x128 : Shape := ⟨3, ![2, 128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S128x4096 : Shape := ⟨2, ![128, 4096]⟩
abbrev S4096x4096 : Shape := ⟨2, ![4096, 4096]⟩
abbrev S1x1x128 : Shape := ⟨3, ![1, 1, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S2x128x128, .f32⟩
  | .hbm, ⟨3, _⟩ => ⟨S128x128, .f32⟩
  | .hbm, ⟨4, _⟩ => ⟨S2x128x128, .f32⟩
  | .hbm, ⟨5, _⟩ => ⟨S128x128, .f32⟩
  | .hbm, ⟨6, _⟩ => ⟨S2x128x128, .f32⟩
  | .hbm, ⟨7, _⟩ => ⟨S128x128, .f32⟩
  | .hbm, ⟨8, _⟩ => ⟨S128, .f32⟩
  | .hbm, ⟨9, _⟩ => ⟨S4096x128, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x128, .f32⟩
  | .hbm, ⟨18, _⟩ => ⟨S4096x128, .f32⟩
  | .hbm, ⟨19, _⟩ => ⟨S128x4096, .f32⟩
  | .hbm, ⟨20, _⟩ => ⟨S4096x4096, .f32⟩
  | .hbm, ⟨21, _⟩ => ⟨S4096x128, .f32⟩
  | .hbm, ⟨22, _⟩ => ⟨S4096x128, .f32⟩
  | .hbm, ⟨23, _⟩ => ⟨S1x1x128, .f32⟩
  | .hbm, ⟨24, _⟩ => ⟨S128, .f32⟩
  | .hbm, ⟨25, _⟩ => ⟨S1x128, .f32⟩
  | .hbm, ⟨26, _⟩ => ⟨S4096x128, .f32⟩
  | .hbm, ⟨27, _⟩ => ⟨S4096x128, .f32⟩
  | .hbm, ⟨28, _⟩ => ⟨S_, .f32⟩
  | .hbm, ⟨29, _⟩ => ⟨S_, .f32⟩
  | .hbm, ⟨30, _⟩ => ⟨S4096x128, .f32⟩
  | .hbm, ⟨31, _⟩ => ⟨S4096x128, .i1⟩
  | .hbm, ⟨32, _⟩ => ⟨S_, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S1x1x128, .f32⟩
  | .hbm, ⟨39, _⟩ => ⟨S128, .f32⟩
  | .hbm, ⟨40, _⟩ => ⟨S1x128, .f32⟩
  | .hbm, ⟨41, _⟩ => ⟨S4096x128, .f32⟩
  | .hbm, ⟨42, _⟩ => ⟨S4096x128, .f32⟩
  | .hbm, ⟨43, _⟩ => ⟨S_, .f32⟩
  | .hbm, ⟨44, _⟩ => ⟨S_, .f32⟩
  | .hbm, ⟨45, _⟩ => ⟨S4096x128, .f32⟩
  | .hbm, ⟨46, _⟩ => ⟨S4096x128, .i1⟩
  | .hbm, ⟨47, _⟩ => ⟨S_, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S1x1x128, .f32⟩
  | .hbm, ⟨54, _⟩ => ⟨S128, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S_, .f32⟩
  | .hbm, ⟨59, _⟩ => ⟨S_, .f32⟩
  | .hbm, ⟨60, _⟩ => ⟨S4096x128, .f32⟩
  | .hbm, ⟨61, _⟩ => ⟨S4096x128, .i1⟩
  | .hbm, ⟨62, _⟩ => ⟨S_, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S1x128, .f32⟩
  | .hbm, ⟨68, _⟩ => ⟨S4096x128, .f32⟩
  | .hbm, ⟨69, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  transposes_S4096x128_S128x4096_1_0 : S4096x128.Transposes [1, 0] S128x4096
  slices_S2x128x128_S1x1x128_0_0_0 : S2x128x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x4096_S4096x4096_1_0_0_1_n_n_wf : DotDims.WF S4096x128 S128x4096 S4096x4096 [1] [0] [0] [1] [] []
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KTerm.lean ====
/-
  What the kernel computes, written as one term of the argument arrays.

  The kernel body is a single block: it reads the whole input matrix x, the three layer weights, the classifier weights,
  and four 1 × 128 rows — row 0 of plane 0 of each layer's bias and the classifier bias, which the surrounding program
  cuts out and reshapes before the call — and stores two whole 4096 × 128 results. The body's arithmetic is the generated
  payload terms; here they are applied to the argument arrays themselves.
-/
import proofs.«143789_g1949915153217_cont_sun_m_781_11_alg».proof.Proof.Gen.KernelIdeal.Skeleton

noncomputable section

namespace Cert.KernelIdeal.KTerm

open Cert.KernelIdeal Cert.KernelIdeal.Gen Idealize.ShloMosaic

variable {F : FTy → Type} [FloatOps F] [Named F]

/-- Row 0 of plane 0 of a bias, as a 1 × 128 row. -/
def biasRow (b : FVec F S2x128x128 .f32) : FVec F S1x128 .f32 :=
  broadcastInDim S1x128 ![1] bcast_S128_S1x128_1
    (shapeCast S128 (extractStridedSlice S1x1x128 ![0, 0, 0] b slices_S2x128x128_S1x1x128_0_0_0) shapeCasts_S1x1x128_S128)

/-- The classifier bias as a 1 × 128 row. -/
def classRow (bc : FVec F S128 .f32) : FVec F S1x128 .f32 :=
  broadcastInDim S1x128 ![1] bcast_S128_S1x128_1 bc

/-- The third layer before its bias and rectifier. -/
def pre3 (x : FVec F S4096x128 .f32) (w1 : FVec F S128x128 .f32) (b1 : FVec F S2x128x128 .f32)
    (w2 : FVec F S128x128 .f32) (b2 : FVec F S2x128x128 .f32) (w3 : FVec F S128x128 .f32) : FVec F S4096x128 .f32 :=
  k0_pay3 x w1 (biasRow b1) w2 (biasRow b2) w3

/-- The hidden result. -/
def hidden (x : FVec F S4096x128 .f32) (w1 : FVec F S128x128 .f32) (b1 : FVec F S2x128x128 .f32)
    (w2 : FVec F S128x128 .f32) (b2 : FVec F S2x128x128 .f32) (w3 : FVec F S128x128 .f32)
    (b3 : FVec F S2x128x128 .f32) : FVec F S4096x128 .f32 :=
  k0_pay1 (pre3 x w1 b1 w2 b2 w3) (biasRow b3)

/-- The output. -/
def output (x : FVec F S4096x128 .f32) (w1 : FVec F S128x128 .f32) (b1 : FVec F S2x128x128 .f32)
    (w2 : FVec F S128x128 .f32) (b2 : FVec F S2x128x128 .f32) (w3 : FVec F S128x128 .f32)
    (b3 : FVec F S2x128x128 .f32) (wc : FVec F S128x128 .f32) (bc : FVec F S128 .f32) : FVec F S4096x128 .f32 :=
  k0_pay2 (pre3 x w1 b1 w2 b2 w3) (biasRow b3) wc (classRow bc)

end Cert.KernelIdeal.KTerm

end
-- ==== Proof.KernelValue.lean ====
/-
  The idealized kernel's run with its two result arrays stated as one term of the argument arrays.

  The kernel has no grid: its one point reads every window's whole array and writes each result's whole array back.
  So a block read at that point is the array itself, what the point writes back is the body's payload applied to the
  arrays as the region finds them, and that one write-back covers the result. Four of the arrays the body reads are
  1 × 128 rows that the surrounding program cuts out of the biases before the region; each is read back here as the
  row of its argument.
-/
import proofs.«143789_g1949915153217_cont_sun_m_781_11_alg».proof.Proof.Gen.KernelIdeal.Value
import proofs.«143789_g1949915153217_cont_sun_m_781_11_alg».proof.Proof.KTerm
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## The rows the surrounding program prepares before the region -/

/-- The first layer's bias row, as the region finds it: row 0 of plane 0 of the first bias. -/
theorem row_b1 (c : Dev nD) :
    (V m c main_v2 : S1x128.Idx → Elt F .f32) = KTerm.biasRow (m ((c : Thread nD τ).loc main_arg2)) := by
  dsimp only [Gen.V, Gen.hostOps0]
  after_results
  rfl

/-- The second layer's bias row. -/
theorem row_b2 (c : Dev nD) :
    (V m c main_v5 : S1x128.Idx → Elt F .f32) = KTerm.biasRow (m ((c : Thread nD τ).loc main_arg4)) := by
  dsimp only [Gen.V, Gen.hostOps0]
  after_results
  rfl

/-- The third layer's bias row. -/
theorem row_b3 (c : Dev nD) :
    (V m c main_v8 : S1x128.Idx → Elt F .f32) = KTerm.biasRow (m ((c : Thread nD τ).loc main_arg6)) := by
  dsimp only [Gen.V, Gen.hostOps0]
  after_results
  rfl

/-- The classifier's bias row. -/
theorem row_bc (c : Dev nD) :
    (V m c main_v9 : S1x128.Idx → Elt F .f32) = KTerm.classRow (m ((c : Thread nD τ).loc main_arg8)) := by
  dsimp only [Gen.V, Gen.hostOps0]
  after_results
  rfl

/-! ## A block at the one point is the whole array -/

/-- Offsets written as two literal zeros are the zero offsets. -/
theorem zero_offsets : (![0, 0] : Fin 2 → Nat) = fun _ => 0 := funext fun a => by fin_cases a <;> rfl

/-! Reading an array through a window's block gives the array itself: the window's block index is zero on every axis and
    the block has the array's own sizes. One statement per window, over any contents of the array's shape. -/

theorem wholeBlock0 (t : Fin cfg0.N) (X : S4096x128.Idx → Elt F .f32) : ((cfg0.win 0).blk t).view.read (Elt F) X = X :=
  Memref.read_access_unit_zero (Elt F) main_arg0 (off := fun a => win0_0.index t a * main_arg0.ty.shape.size a)
    (funext fun a => Nat.zero_mul _) (fun a => by show 0 * _ + _ ≤ _; omega) X

theorem wholeBlock1 (t : Fin cfg0.N) (X : S128x128.Idx → Elt F .f32) : ((cfg0.win 1).blk t).view.read (Elt F) X = X :=
  Memref.read_access_unit_zero (Elt F) main_arg1 (off := fun a => win0_1.index t a * main_arg1.ty.shape.size a)
    (funext fun a => Nat.zero_mul _) (fun a => by show 0 * _ + _ ≤ _; omega) X

theorem wholeBlock2 (t : Fin cfg0.N) (X : S1x128.Idx → Elt F .f32) : ((cfg0.win 2).blk t).view.read (Elt F) X = X :=
  Memref.read_access_unit_zero (Elt F) main_v2 (off := fun a => win0_2.index t a * main_v2.ty.shape.size a)
    (funext fun a => Nat.zero_mul _) (fun a => by show 0 * _ + _ ≤ _; omega) X

theorem wholeBlock3 (t : Fin cfg0.N) (X : S128x128.Idx → Elt F .f32) : ((cfg0.win 3).blk t).view.read (Elt F) X = X :=
  Memref.read_access_unit_zero (Elt F) main_arg3 (off := fun a => win0_3.index t a * main_arg3.ty.shape.size a)
    (funext fun a => Nat.zero_mul _) (fun a => by show 0 * _ + _ ≤ _; omega) X

theorem wholeBlock4 (t : Fin cfg0.N) (X : S1x128.Idx → Elt F .f32) : ((cfg0.win 4).blk t).view.read (Elt F) X = X :=
  Memref.read_access_unit_zero (Elt F) main_v5 (off := fun a => win0_4.index t a * main_v5.ty.shape.size a)
    (funext fun a => Nat.zero_mul _) (fun a => by show 0 * _ + _ ≤ _; omega) X

theorem wholeBlock5 (t : Fin cfg0.N) (X : S128x128.Idx → Elt F .f32) : ((cfg0.win 5).blk t).view.read (Elt F) X = X :=
  Memref.read_access_unit_zero (Elt F) main_arg5 (off := fun a => win0_5.index t a * main_arg5.ty.shape.size a)
    (funext fun a => Nat.zero_mul _) (fun a => by show 0 * _ + _ ≤ _; omega) X

theorem wholeBlock6 (t : Fin cfg0.N) (X : S1x128.Idx → Elt F .f32) : ((cfg0.win 6).blk t).view.read (Elt F) X = X :=
  Memref.read_access_unit_zero (Elt F) main_v8 (off := fun a => win0_6.index t a * main_v8.ty.shape.size a)
    (funext fun a => Nat.zero_mul _) (fun a => by show 0 * _ + _ ≤ _; omega) X

theorem wholeBlock7 (t : Fin cfg0.N) (X : S128x128.Idx → Elt F .f32) : ((cfg0.win 7).blk t).view.read (Elt F) X = X :=
  Memref.read_access_unit_zero (Elt F) main_arg7 (off := fun a => win0_7.index t a * main_arg7.ty.shape.size a)
    (funext fun a => Nat.zero_mul _) (fun a => by show 0 * _ + _ ≤ _; omega) X

theorem wholeBlock8 (t : Fin cfg0.N) (X : S1x128.Idx → Elt F .f32) : ((cfg0.win 8).blk t).view.read (Elt F) X = X :=
  Memref.read_access_unit_zero (Elt F) main_v9 (off := fun a => win0_8.index t a * main_v9.ty.shape.size a)
    (funext fun a => Nat.zero_mul _) (fun a => by show 0 * _ + _ ≤ _; omega) X

theorem wholeBlock9 (t : Fin cfg0.N) (X : S4096x128.Idx → Elt F .f32) : ((cfg0.win 9).blk t).view.read (Elt F) X = X :=
  Memref.read_access_unit_zero (Elt F) main_v10_0 (off := fun a => win0_9.index t a * main_v10_0.ty.shape.size a)
    (funext fun a => Nat.zero_mul _) (fun a => by show 0 * _ + _ ≤ _; omega) X

theorem wholeBlock10 (t : Fin cfg0.N) (X : S4096x128.Idx → Elt F .f32) : ((cfg0.win 10).blk t).view.read (Elt F) X = X :=
  Memref.read_access_unit_zero (Elt F) main_v10_1 (off := fun a => win0_10.index t a * main_v10_1.ty.shape.size a)
    (funext fun a => Nat.zero_mul _) (fun a => by show 0 * _ + _ ≤ _; omega) X

/-! ## Each input block, as a term of the argument arrays -/

/-- The input matrix's block is the input matrix as launched. -/
theorem block_x (c : Dev nD) (t : Fin cfg0.N) : (iblk m c 0 t : Vec F S4096x128 .f32) = (m ((c : Thread nD τ).loc main_arg0)) := by
  unfold iblk
  show ((cfg0.win 0).blk t).view.read (Elt F) (V m c main_arg0) = _
  exact (wholeBlock0 t (V m c main_arg0)).trans (V_main_arg0 m c)

/-- The first layer's weight block is the weight as launched. -/
theorem block_w1 (c : Dev nD) (t : Fin cfg0.N) : (iblk m c 1 t : Vec F S128x128 .f32) = (m ((c : Thread nD τ).loc main_arg1)) := by
  unfold iblk
  show ((cfg0.win 1).blk t).view.read (Elt F) (V m c main_arg1) = _
  exact (wholeBlock1 t (V m c main_arg1)).trans (V_main_arg1 m c)

/-- The first layer's bias block is the bias row of the first bias. -/
theorem block_b1 (c : Dev nD) (t : Fin cfg0.N) : (iblk m c 2 t : Vec F S1x128 .f32) = KTerm.biasRow (m ((c : Thread nD τ).loc main_arg2)) := by
  unfold iblk
  show ((cfg0.win 2).blk t).view.read (Elt F) (V m c main_v2) = _
  exact (wholeBlock2 t (V m c main_v2)).trans (row_b1 m c)

/-- The second layer's weight block is the weight as launched. -/
theorem block_w2 (c : Dev nD) (t : Fin cfg0.N) : (iblk m c 3 t : Vec F S128x128 .f32) = (m ((c : Thread nD τ).loc main_arg3)) := by
  unfold iblk
  show ((cfg0.win 3).blk t).view.read (Elt F) (V m c main_arg3) = _
  exact (wholeBlock3 t (V m c main_arg3)).trans (V_main_arg3 m c)

/-- The second layer's bias block is the bias row of the second bias. -/
theorem block_b2 (c : Dev nD) (t : Fin cfg0.N) : (iblk m c 4 t : Vec F S1x128 .f32) = KTerm.biasRow (m ((c : Thread nD τ).loc main_arg4)) := by
  unfold iblk
  show ((cfg0.win 4).blk t).view.read (Elt F) (V m c main_v5) = _
  exact (wholeBlock4 t (V m c main_v5)).trans (row_b2 m c)

/-- The third layer's weight block is the weight as launched. -/
theorem block_w3 (c : Dev nD) (t : Fin cfg0.N) : (iblk m c 5 t : Vec F S128x128 .f32) = (m ((c : Thread nD τ).loc main_arg5)) := by
  unfold iblk
  show ((cfg0.win 5).blk t).view.read (Elt F) (V m c main_arg5) = _
  exact (wholeBlock5 t (V m c main_arg5)).trans (V_main_arg5 m c)

/-- The third layer's bias block is the bias row of the third bias. -/
theorem block_b3 (c : Dev nD) (t : Fin cfg0.N) : (iblk m c 6 t : Vec F S1x128 .f32) = KTerm.biasRow (m ((c : Thread nD τ).loc main_arg6)) := by
  unfold iblk
  show ((cfg0.win 6).blk t).view.read (Elt F) (V m c main_v8) = _
  exact (wholeBlock6 t (V m c main_v8)).trans (row_b3 m c)

/-- The classifier's weight block is the weight as launched. -/
theorem block_wc (c : Dev nD) (t : Fin cfg0.N) : (iblk m c 7 t : Vec F S128x128 .f32) = (m ((c : Thread nD τ).loc main_arg7)) := by
  unfold iblk
  show ((cfg0.win 7).blk t).view.read (Elt F) (V m c main_arg7) = _
  exact (wholeBlock7 t (V m c main_arg7)).trans (V_main_arg7 m c)

/-- The classifier's bias block is the classifier bias as a row. -/
theorem block_bc (c : Dev nD) (t : Fin cfg0.N) : (iblk m c 8 t : Vec F S1x128 .f32) = KTerm.classRow (m ((c : Thread nD τ).loc main_arg8)) := by
  unfold iblk
  show ((cfg0.win 8).blk t).view.read (Elt F) (V m c main_v9) = _
  exact (wholeBlock8 t (V m c main_v9)).trans (row_bc m c)

/-! ## What the one point writes back, and the arrays after the run -/

/-- The output's write-back is the output term of the argument arrays, read through the output window's block. -/
theorem output_written (c : Dev nD) (t : Fin cfg0.N) :
    (dats m 0 c).flushed 9 t = ((cfg0.win 9).blk t).view.read (Elt F) (KTerm.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Value.flushed9]
  unfold out0_9
  rw [View.canon_unit_zero zero_offsets]
  simp only [View.ld_unit_zero (S := S4096x128) zero_offsets, View.ld_unit_zero (S := S128x128) zero_offsets, View.ld_unit_zero (S := S1x128) zero_offsets]
  rw [block_x m c t, block_w1 m c t, block_b1 m c t, block_w2 m c t, block_b2 m c t, block_w3 m c t, block_b3 m c t, block_wc m c t, block_bc m c t]
  rw [wholeBlock9]
  unfold KTerm.output KTerm.pre3
  rfl

/-- The hidden result's write-back is the hidden term of the argument arrays, read through its window's block. -/
theorem hidden_written (c : Dev nD) (t : Fin cfg0.N) :
    (dats m 0 c).flushed 10 t = ((cfg0.win 10).blk t).view.read (Elt F) (KTerm.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed10]
  unfold out0_10
  rw [View.canon_unit_zero zero_offsets]
  simp only [View.ld_unit_zero (S := S4096x128) zero_offsets, View.ld_unit_zero (S := S128x128) zero_offsets, View.ld_unit_zero (S := S1x128) zero_offsets]
  rw [block_x m c t, block_w1 m c t, block_b1 m c t, block_w2 m c t, block_b2 m c t, block_w3 m c t, block_b3 m c t]
  rw [wholeBlock10]
  unfold KTerm.hidden KTerm.pre3
  rfl

/-- The one point's block covers the whole output array. -/
theorem output_covered (i : S4096x128.Idx) : ∃ t : Fin cfg0.N, (cfg0.win 9).flush t = true ∧ i ∈ ((cfg0.win 9).blk t).view.set :=
  ⟨t0_0, flush0_9 t0_0, by
    show i ∈ ((View.whole main_v10_0).slice (win0_9.rect t0_0)).set
    rw [View.set_slice_whole]
    exact View.mem_set_unit_zero (off := fun a => win0_9.index t0_0 a * win0_9.size a) (funext fun a => Nat.zero_mul _) _ i⟩

/-- The one point's block covers the whole hidden array. -/
theorem hidden_covered (i : S4096x128.Idx) : ∃ t : Fin cfg0.N, (cfg0.win 10).flush t = true ∧ i ∈ ((cfg0.win 10).blk t).view.set :=
  ⟨t0_0, flush0_10 t0_0, by
    show i ∈ ((View.whole main_v10_1).slice (win0_10.rect t0_0)).set
    rw [View.set_slice_whole]
    exact View.mem_set_unit_zero (off := fun a => win0_10.index t0_0 a * win0_10.size a) (funext fun a => Nat.zero_mul _) _ i⟩

/-- So the output array ends holding the output term of the argument arrays. -/
theorem output_final (c : Dev nD) : (dats m 0 c).arrAt 9 cfg0.N = KTerm.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (KTerm.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => output_written m c t) output_covered

/-- And the hidden array ends holding the hidden term. -/
theorem hidden_final (c : Dev nD) : (dats m 0 c).arrAt 10 cfg0.N = KTerm.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 10 (KTerm.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => hidden_written m c t) hidden_covered

/-! ## The run, read -/

/-- The idealized kernel's run: the output and the hidden result each at its term of the argument arrays, the arguments
    unchanged. -/
theorem run : θ_run defs (onTc (τ := τ) (main (F := F))) ⟨m, fun _ => 0, ρ⟩ fun r => ∀ c : Dev nD,
      r.2.mem ((c : Thread nD τ).loc main_v10_0) = KTerm.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v10_1) = KTerm.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (output_final m c), (h c).2.1.trans (hidden_final m c), (h c).2.2⟩)
    (Value.run_blocks m ρ)

end Cert.KernelIdeal.KValue

end
-- ==== Proof.RefTerm.lean ====
/-
  What the reference computes, written once as a composition of named stages over whole arrays.

  From the input matrix x (4096 rows of 128 features) the reference forms the Euclidean norm of every row, divides each
  row by its norm (floored at a small positive constant so that a zero row stays zero), and takes all pairwise inner
  products of the resulting unit rows: a 4096 × 4096 Gram matrix g. A layer sends a hidden matrix h to
  leaky(g · (h · W) + b), where b is row 0 of plane 0 of the layer's bias repeated down all rows and leaky keeps a
  nonnegative entry and multiplies a negative one by 1/4. Three layers give the hidden result; one more product with the
  classifier weights, plus the classifier bias repeated down all rows, gives the output.
-/
import proofs.«143789_g1949915153217_cont_sun_m_781_11_alg».proof.Proof.Gen.ReferenceIdeal

noncomputable section

namespace Cert.ReferenceIdeal.RefTerm

open Cert.ReferenceIdeal Cert.ReferenceIdeal.Gen Idealize.ShloMosaic

variable {F : FTy → Type} [FloatOps F]

/-- The Euclidean norm of each row, as a column. -/
def rowNorm (x : FVec F S4096x128 .f32) : FVec F S4096x1 .f32 :=
  Host.sqrt (broadcastInDim S4096x1 ![0] bcast_S4096_S4096x1_0
    (Host.reduceAdd (mulf x x) (constant S_ .f32 0x00000000#32) reducesTo_S4096x128_S4096_d1 h_S_))

/-- Each row divided by its norm, the norm floored at the reference's small positive constant. -/
def unitRows (x : FVec F S4096x128 .f32) : FVec F S4096x128 .f32 :=
  Host.divf x (broadcastInDim S4096x128 ![0, 1] bcast_S4096x1_S4096x128_0_1
    (maximumf (rowNorm x) (broadcastInDim S4096x1 ![] bcast_S_S4096x1 (constant S_ .f32 0x322BCC77#32))))

/-- All pairwise inner products of the unit rows. -/
def gram (x : FVec F S4096x128 .f32) : FVec F S4096x4096 .f32 :=
  Host.dotGeneral dot_S4096x128_S128x4096_S4096x4096_1_0_0_1_n_n none (unitRows x)
    (transpose S128x4096 [1, 0] (unitRows x) transposes_S4096x128_S128x4096_1_0)

/-- Row 0 of plane 0 of a bias, as a 1 × 128 row. -/
def biasRow (b : FVec F S2x128x128 .f32) : FVec F S1x128 .f32 :=
  broadcastInDim S1x128 ![1] bcast_S128_S1x128_1
    (shapeCast S128 (extractStridedSlice S1x1x128 ![0, 0, 0] b slices_S2x128x128_S1x1x128_0_0_0) shapeCasts_S1x1x128_S128)

/-- A 1 × 128 row repeated down all 4096 rows. -/
def downRows (r : FVec F S1x128 .f32) : FVec F S4096x128 .f32 :=
  broadcastInDim S4096x128 ![0, 1] bcast_S1x128_S4096x128_0_1 r

/-- The leaky rectifier of slope 1/4 as the reference spells it: a nonnegative entry is kept, a negative one scaled. -/
def leaky (q : FVec F S4096x128 .f32) : FVec F S4096x128 .f32 :=
  select (cmpf .oge q (broadcastInDim S4096x128 ![] bcast_S_S4096x128 (constant S_ .f32 0x00000000#32))) q
    (mulf (broadcastInDim S4096x128 ![] bcast_S_S4096x128 (id (constant S_ .f32 0x3E800000#32))) q)

/-- One layer: the Gram matrix times (h times W), plus the bias row, through the rectifier. -/
def layer (g : FVec F S4096x4096 .f32) (h : FVec F S4096x128 .f32) (w : FVec F S128x128 .f32)
    (b : FVec F S2x128x128 .f32) : FVec F S4096x128 .f32 :=
  leaky (addf (Host.dotGeneral dot_S4096x4096_S4096x128_S4096x128_1_0_0_1_n_n none g
    (Host.dotGeneral dot_S4096x128_S128x128_S4096x128_1_0_0_1_n_n none h w)) (downRows (biasRow b)))

/-- The hidden result: three layers over the same Gram matrix. -/
def hidden (x : FVec F S4096x128 .f32) (w1 : FVec F S128x128 .f32) (b1 : FVec F S2x128x128 .f32)
    (w2 : FVec F S128x128 .f32) (b2 : FVec F S2x128x128 .f32) (w3 : FVec F S128x128 .f32)
    (b3 : FVec F S2x128x128 .f32) : FVec F S4096x128 .f32 :=
  layer (gram x) (layer (gram x) (layer (gram x) x w1 b1) w2 b2) w3 b3

/-- The output: the hidden result times the classifier weights, plus the classifier bias on every row. -/
def output (h : FVec F S4096x128 .f32) (wc : FVec F S128x128 .f32) (bc : FVec F S128 .f32) : FVec F S4096x128 .f32 :=
  addf (Host.dotGeneral dot_S4096x128_S128x128_S4096x128_1_0_0_1_n_n none h wc)
    (downRows (broadcastInDim S1x128 ![1] bcast_S128_S1x128_1 bc))

end Cert.ReferenceIdeal.RefTerm

end
-- ==== Proof.RefRun.lean ====
/-
  The run of the reference program: its @main is one straight line of sixty-one host operations once each call of a
  private function is replaced by the callee's operations over that call's buffers, and every weakly fair execution of
  that line terminates with each buffer holding the fold of the operations' results over the contents it was launched
  with. Read at the two result buffers, the fold is the composition of the named stages of RefTerm: the row norms, the
  unit rows, their Gram matrix, three layers over it, and the classifier product; read at an argument buffer, which no
  operation writes, it is the launch contents.
-/
import proofs.«143789_g1949915153217_cont_sun_m_781_11_alg».proof.Proof.Gen.ReferenceIdeal
import proofs.«143789_g1949915153217_cont_sun_m_781_11_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. The row norm is five (the squares, the scalar zero, the sum along
    each row, the sums as a column, the square root) into the buffers of its call; then the floor constant and its
    broadcast, the maximum, its broadcast along the rows, the quotient, the transpose and the Gram product. Each of the
    three layers is the product with the weights, the product with the Gram matrix, the bias row (slice, reshape, two
    broadcasts), the sum, the slope constant, and the rectifier's seven into the buffers of its call (the scalar zero and
    its broadcast, the comparison, the slope converted to its own type and broadcast, the scaled entries, the selection).
    Last the classifier product, the classifier bias broadcast twice, and the sum. -/
abbrev ops : List (HloOp τ sig (Elt F)) :=
  [ TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S4096x128_S4096_d1 h_S_),
    TRef.unary main_call0.v1 main_call0.v2 (broadcastInDim S4096x1 ![0] bcast_S4096_S4096x1_0),
    TRef.unary main_call0.v2 main_call0.v3 Host.sqrt,
    nullary main_cst (constant S_ .f32 0x322BCC77#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x128 ![0, 1] bcast_S4096x1_S4096x128_0_1 : (⟨S4096x1, .f32⟩ : BufTy).Contents (Elt F) → (⟨S4096x128, .f32⟩ : BufTy).Contents (Elt F)),
    binary main_arg0 main_v3 main_v4 (Host.divf : (⟨S4096x128, .f32⟩ : BufTy).Contents (Elt F) → (⟨S4096x128, .f32⟩ : BufTy).Contents (Elt F) → (⟨S4096x128, .f32⟩ : BufTy).Contents (Elt F)),
    unary main_v4 main_v5 ((transpose S128x4096 [1, 0] · transposes_S4096x128_S128x4096_1_0) : (⟨S4096x128, .f32⟩ : BufTy).Contents (Elt F) → (⟨S128x4096, .f32⟩ : BufTy).Contents (Elt F)),
    binary main_v4 main_v5 main_v6 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    binary main_arg0 main_arg1 main_v7 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v6 main_v7 main_v8 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg2 main_v9 ((extractStridedSlice S1x1x128 ![0, 0, 0] · slices_S2x128x128_S1x1x128_0_0_0) : (⟨S2x128x128, .f32⟩ : BufTy).Contents (Elt F) → (⟨S1x1x128, .f32⟩ : BufTy).Contents (Elt F)),
    reshape main_v9 main_v10 rfl shapeCasts_S1x1x128_S128,
    unary main_v10 main_v11 (broadcastInDim S1x128 ![1] bcast_S128_S1x128_1 : (⟨S128, .f32⟩ : BufTy).Contents (Elt F) → (⟨S1x128, .f32⟩ : BufTy).Contents (Elt F)),
    unary main_v11 main_v12 (broadcastInDim S4096x128 ![0, 1] bcast_S1x128_S4096x128_0_1 : (⟨S1x128, .f32⟩ : BufTy).Contents (Elt F) → (⟨S4096x128, .f32⟩ : BufTy).Contents (Elt F)),
    binary main_v8 main_v12 main_v13 (addf : (⟨S4096x128, .f32⟩ : BufTy).Contents (Elt F) → (⟨S4096x128, .f32⟩ : BufTy).Contents (Elt F) → (⟨S4096x128, .f32⟩ : BufTy).Contents (Elt F)),
    nullary main_cst_0 (constant S_ .f32 0x3E800000#32),
    TRef.nullary main_call1.cst (constant S_ .f32 0x00000000#32),
    TRef.unary main_call1.cst main_call1.v0 (broadcastInDim S4096x128 ![] bcast_S_S4096x128),
    TRef.binary (.of main_v13) main_call1.v0 main_call1.v1 (cmpf .oge),
    TRef.unary (.of main_cst_0) main_call1.v2 id,
    TRef.unary main_call1.v2 main_call1.v3 (broadcastInDim S4096x128 ![] bcast_S_S4096x128),
    TRef.binary main_call1.v3 (.of main_v13) main_call1.v4 mulf,
    TRef.ternary main_call1.v1 (.of main_v13) main_call1.v4 main_call1.call0.v0 select,
    binary main_v14 main_arg3 main_v15 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v6 main_v15 main_v16 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg4 main_v17 ((extractStridedSlice S1x1x128 ![0, 0, 0] · slices_S2x128x128_S1x1x128_0_0_0) : (⟨S2x128x128, .f32⟩ : BufTy).Contents (Elt F) → (⟨S1x1x128, .f32⟩ : BufTy).Contents (Elt F)),
    reshape main_v17 main_v18 rfl shapeCasts_S1x1x128_S128,
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S4096x128 ![0, 1] bcast_S1x128_S4096x128_0_1 : (⟨S1x128, .f32⟩ : BufTy).Contents (Elt F) → (⟨S4096x128, .f32⟩ : BufTy).Contents (Elt F)),
    binary main_v16 main_v20 main_v21 (addf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x3E800000#32),
    TRef.nullary main_call2.cst (constant S_ .f32 0x00000000#32),
    TRef.unary main_call2.cst main_call2.v0 (broadcastInDim S4096x128 ![] bcast_S_S4096x128),
    TRef.binary (.of main_v21) main_call2.v0 main_call2.v1 (cmpf .oge),
    TRef.unary (.of main_cst_1) main_call2.v2 id,
    TRef.unary main_call2.v2 main_call2.v3 (broadcastInDim S4096x128 ![] bcast_S_S4096x128),
    TRef.binary main_call2.v3 (.of main_v21) main_call2.v4 mulf,
    TRef.ternary main_call2.v1 (.of main_v21) main_call2.v4 main_call2.call0.v0 select,
    binary main_v22 main_arg5 main_v23 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v6 main_v23 main_v24 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg6 main_v25 ((extractStridedSlice S1x1x128 ![0, 0, 0] · slices_S2x128x128_S1x1x128_0_0_0) : (⟨S2x128x128, .f32⟩ : BufTy).Contents (Elt F) → (⟨S1x1x128, .f32⟩ : BufTy).Contents (Elt F)),
    reshape main_v25 main_v26 rfl shapeCasts_S1x1x128_S128,
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S4096x128 ![0, 1] bcast_S1x128_S4096x128_0_1 : (⟨S1x128, .f32⟩ : BufTy).Contents (Elt F) → (⟨S4096x128, .f32⟩ : BufTy).Contents (Elt F)),
    binary main_v24 main_v28 main_v29 (addf : (⟨S4096x128, .f32⟩ : BufTy).Contents (Elt F) → (⟨S4096x128, .f32⟩ : BufTy).Contents (Elt F) → (⟨S4096x128, .f32⟩ : BufTy).Contents (Elt F)),
    nullary main_cst_2 (constant S_ .f32 0x3E800000#32),
    TRef.nullary main_call3.cst (constant S_ .f32 0x00000000#32),
    TRef.unary main_call3.cst main_call3.v0 (broadcastInDim S4096x128 ![] bcast_S_S4096x128),
    TRef.binary (.of main_v29) main_call3.v0 main_call3.v1 (cmpf .oge),
    TRef.unary (.of main_cst_2) main_call3.v2 id,
    TRef.unary main_call3.v2 main_call3.v3 (broadcastInDim S4096x128 ![] bcast_S_S4096x128),
    TRef.binary main_call3.v3 (.of main_v29) main_call3.v4 mulf,
    TRef.ternary main_call3.v1 (.of main_v29) main_call3.v4 main_call3.call0.v0 select,
    binary main_v30 main_arg7 main_v31 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg8 main_v32 (broadcastInDim S1x128 ![1] bcast_S128_S1x128_1 : (⟨S128, .f32⟩ : BufTy).Contents (Elt F) → (⟨S1x128, .f32⟩ : BufTy).Contents (Elt F)),
    unary main_v32 main_v33 (broadcastInDim S4096x128 ![0, 1] bcast_S1x128_S4096x128_0_1 : (⟨S1x128, .f32⟩ : BufTy).Contents (Elt F) → (⟨S4096x128, .f32⟩ : BufTy).Contents (Elt F)),
    binary main_v31 main_v33 main_v34 (addf : (⟨S4096x128, .f32⟩ : BufTy).Contents (Elt F) → (⟨S4096x128, .f32⟩ : BufTy).Contents (Elt F) → (⟨S4096x128, .f32⟩ : BufTy).Contents (Elt F)) ]

-- sixty-one binds re-associated: the rewrite under the chain recurses once per statement
set_option maxRecDepth 2048 in
/-- @main is that straight line: with the private functions' definitions unfolded at their calls, both sides are one
    chain of host steps once sequencing is re-associated. -/
theorem main_eq (c : Dev nD) : main (F := F) c = seq ops := by
  simp only [main, fn_norm.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., binary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., binary_bufs_sub .., unary_bufs_sub .., unary_bufs_sub ..,
    binary_bufs_sub ..⟩

/-! ## The fold read at the results and at the arguments

The fold of the operations' results is unrolled once, each buffer read resolved to the operation that writes it (or, at an
argument, to none) in one pass that visits a shared intermediate value once: the Gram matrix feeds all three layers and
each layer's sum feeds its rectifier three times. What is left at a result is the operations' composed term over the
argument buffers, and it is the composition of the named stages by unfolding their definitions: a reshape's value is the
shape cast the bias row uses, and the typed references' transports are the identity at these literal references. -/

-- the composed term is deep: each layer's sum occurs three times under its rectifier, the Gram matrix once under each sum
set_option maxRecDepth 8192 in
set_option maxHeartbeats 1000000 in
/-- The hidden result: the third layer's selection. -/
theorem v30_eq (V : Valuation τ sig (Elt F)) :
    after ops V (main_v30 : DevRef τ sig) = RefTerm.hidden (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

set_option maxRecDepth 8192 in
set_option maxHeartbeats 1000000 in
/-- The output: the classifier product of the hidden result plus the classifier bias on every row. -/
theorem v34_eq (V : Valuation τ sig (Elt F)) :
    after ops V (main_v34 : DevRef τ sig)
      = RefTerm.output (RefTerm.hidden (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))) (V (main_arg7 : DevRef τ sig)) (V (main_arg8 : DevRef τ sig)) := by
  after_results_simp
  rfl

/-! No operation writes an argument buffer: each keeps its launch contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

/-- On every device, for any float values, from any memory with zero counters: every weakly fair execution of @main
    terminates with the output buffer at the output stage of the hidden stage of the arguments, the hidden buffer at the
    hidden stage, and the nine arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = RefTerm.output (RefTerm.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_v30) = RefTerm.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v34).trans (v34_eq _), (h c main_v30).trans (v30_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefRun

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.LibRowsProduct.lean ====
/-
  A matrix product that contracts the ROWS of both operands, into a zero accumulator, read at one entry.

  For a matrix `l` of shape `[K, M]` and a matrix `r` of shape `[K, N]`, contracted over the first axis of each, the
  product is lᵀ·r: its entry `(p, c)` on the extended reals is `∑ k, l[k, p] · r[k, c]`. The accumulator contributes
  the real `0`, the contraction index has a single axis of extent `K` and is traded for its one coordinate `k`, and the
  operand indices at the output index `(p, c)` and contraction coordinate `k` are `(k, p)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.RowsProduct

open Idealize.ShloMosaic Idealize.ShloMosaic.ValueIdx

/-- Entry `(p, c)` of a `[K, M]` by `[K, N]` product contracting the rows, into the zero accumulator, is
    `∑ k, l[k, p] · r[k, c]`, for any dimension numbers `D` whose contraction has the one axis of extent `K` and whose
    operand indices read `(k, p)` and `(k, c)`. -/
theorem matmul_zero_rows_entry {K M N : ℕ} (D : DotDims ⟨2, ![K, M]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (q ⟨0, by omega⟩).val)
    (hl1 : ∀ (j : (⟨2, ![M, N]⟩ : Shape).Idx) (q : D.contr.Idx), (D.lhsIdx j q (1 : Fin 2)).val = (j (0 : Fin 2)).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![K, M]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p :=
    funext fun a => Fin.ext (by
      match a with
      | ⟨0, _⟩ => exact (hl0 (ix2 p c) _).trans hk
      | ⟨1, _⟩ => exact hl1 (ix2 p c) _)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.RowsProduct

end
-- ==== Proof.Model.lean ====
/-
  The algebra of the two programs over the real numbers, on matrices given entry by entry.

  Both programs first scale every row of X to unit length. One divides the row by max(√s, δ), s the row's sum of squares;
  the other multiplies it by (√(max(s, ε)))⁻¹. Since the square root is monotone, √(max(s, δ·δ)) = max(√s, δ) for δ ≥ 0,
  so the two scalings agree when ε = δ·δ.

  A layer multiplies the hidden matrix H by the Gram matrix U·Uᵀ of the unit rows. One program forms
  (U·Uᵀ)·(H·W); the other never forms the Gram matrix and computes U·((Uᵀ·H)·W). Matrix multiplication is associative,
  so both are U·Uᵀ·H·W.

  The leaky rectifier of slope q is written max(v, q·v) by one program and "v if 0 ≤ v, else q·v" by the other; they
  agree for 0 ≤ q ≤ 1.
-/
import Mathlib.Data.Matrix.Mul
import Mathlib.Analysis.SpecialFunctions.Sqrt

noncomputable section

namespace Cert.Model

variable {n d e f : ℕ}

/-- Rows scaled by the inverse square root of their sum of squares, the sum floored at ε. -/
def unitRowsK (ε : ℝ) (X : Fin n → Fin d → ℝ) : Fin n → Fin d → ℝ :=
  fun p c => X p c * (Real.sqrt (max (∑ k, X p k * X p k) ε))⁻¹

/-- Rows divided by their Euclidean norm, the norm floored at δ. -/
def unitRowsR (δ : ℝ) (X : Fin n → Fin d → ℝ) : Fin n → Fin d → ℝ :=
  fun p c => X p c * (1 / max (Real.sqrt (∑ k, X p k * X p k)) δ)

/-- Flooring the sum of squares at δ·δ is flooring the norm at δ. -/
theorem unitRowsK_eq (δ : ℝ) (hδ : 0 ≤ δ) (X : Fin n → Fin d → ℝ) : unitRowsK (δ * δ) X = unitRowsR δ X := by
  funext p c
  unfold unitRowsK unitRowsR
  have mono : Monotone Real.sqrt := fun _ _ h => Real.sqrt_le_sqrt h
  rw [mono.map_max, Real.sqrt_mul_self hδ, one_div]

/-- The product A·B. -/
def mm {a b c : ℕ} (A : Fin a → Fin b → ℝ) (B : Fin b → Fin c → ℝ) : Fin a → Fin c → ℝ :=
  fun p q => ∑ k, A p k * B k q

/-- The product Aᵀ·B, contracting the rows of both. -/
def mmT {k a c : ℕ} (A : Fin k → Fin a → ℝ) (B : Fin k → Fin c → ℝ) : Fin a → Fin c → ℝ :=
  fun p q => ∑ i, A i p * B i q

/-- The Gram matrix A·Aᵀ of the rows of A. -/
def gram {a k : ℕ} (A : Fin a → Fin k → ℝ) : Fin a → Fin a → ℝ :=
  fun p q => ∑ i, A p i * A q i

/-- U·((Uᵀ·H)·W) = (U·Uᵀ)·(H·W). -/
theorem regroup (U : Fin n → Fin d → ℝ) (H : Fin n → Fin e → ℝ) (W : Fin e → Fin f → ℝ) :
    mm U (mm (mmT U H) W) = mm (gram U) (mm H W) := by
  funext p q
  show (Matrix.of U * ((Matrix.of U).transpose * Matrix.of H * Matrix.of W)) p q
    = ((Matrix.of U * (Matrix.of U).transpose) * (Matrix.of H * Matrix.of W)) p q
  simp only [Matrix.mul_assoc]

/-- The leaky rectifier as a maximum. -/
def leakyK (q v : ℝ) : ℝ := max v (q * v)

/-- The leaky rectifier by cases on the sign. -/
def leakyR (q v : ℝ) : ℝ := if 0 ≤ v then v else q * v

theorem leakyK_eq (q : ℝ) (h0 : 0 ≤ q) (h1 : q ≤ 1) (v : ℝ) : leakyK q v = leakyR q v := by
  unfold leakyK leakyR
  split_ifs with h
  · exact max_eq_left (by nlinarith [mul_nonneg (sub_nonneg.2 h1) h])
  · have hv : v ≤ 0 := le_of_lt (not_le.1 h)
    exact max_eq_right (by nlinarith [mul_nonneg (sub_nonneg.2 h1) (neg_nonneg.2 hv)])

/-- A layer without the Gram matrix: leaky(U·((Uᵀ·H)·W) + b). -/
def layerK (q : ℝ) (U : Fin n → Fin d → ℝ) (H : Fin n → Fin e → ℝ) (W : Fin e → Fin f → ℝ) (b : Fin f → ℝ) :
    Fin n → Fin f → ℝ :=
  fun p c => leakyK q (mm U (mm (mmT U H) W) p c + b c)

/-- A layer through the Gram matrix: leaky((U·Uᵀ)·(H·W) + b). -/
def layerR (q : ℝ) (U : Fin n → Fin d → ℝ) (H : Fin n → Fin e → ℝ) (W : Fin e → Fin f → ℝ) (b : Fin f → ℝ) :
    Fin n → Fin f → ℝ :=
  fun p c => leakyR q (mm (gram U) (mm H W) p c + b c)

theorem layerK_eq (q : ℝ) (h0 : 0 ≤ q) (h1 : q ≤ 1) (U : Fin n → Fin d → ℝ) (H : Fin n → Fin e → ℝ)
    (W : Fin e → Fin f → ℝ) (b : Fin f → ℝ) : layerK q U H W b = layerR q U H W b := by
  funext p c
  unfold layerK layerR
  rw [regroup, leakyK_eq q h0 h1]

/-- The classifier: H·Wc plus the bias on every row. -/
def classify (H : Fin n → Fin e → ℝ) (Wc : Fin e → Fin f → ℝ) (bc : Fin f → ℝ) : Fin n → Fin f → ℝ :=
  fun p c => mm H Wc p c + bc c

end Cert.Model

end
-- ==== Proof.IdealReal.lean ====
/-
  Real matrices inside the extended reals.

  Under the precondition every input entry is a real number, and every operation the two programs apply keeps real
  entries real: sums and products of reals, maxima, a square root of a nonnegative real, an inverse square root of a
  positive real, a quotient by a positive real. This module names the array of extended reals that a real matrix gives
  (`lift2`) and shows, one operation at a time, that an operation applied to such arrays is again such an array, of
  the corresponding operation on the real matrices. Sums are moved through the embedding of ℝ into the extended reals by
  induction over the index set.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import proofs.«143789_g1949915153217_cont_sun_m_781_11_alg».proof.Proof.LibPlainProduct
import proofs.«143789_g1949915153217_cont_sun_m_781_11_alg».proof.Proof.LibHostProduct
import proofs.«143789_g1949915153217_cont_sun_m_781_11_alg».proof.Proof.LibHostLayout
import proofs.«143789_g1949915153217_cont_sun_m_781_11_alg».proof.Proof.LibRowsProduct
import proofs.«143789_g1949915153217_cont_sun_m_781_11_alg».proof.Proof.Model

noncomputable section

namespace Cert.IdealReal

open Idealize.ShloMosaic Idealize.ShloMosaic.ValueIdx

/-- The array of extended reals holding the real matrix `A`. -/
def lift2 {a b : ℕ} (A : Fin a → Fin b → ℝ) : FVec Ideal ⟨2, ![a, b]⟩ .f32 :=
  fun j => ((A ⟨(j 0).val, idx2_lt0 j⟩ ⟨(j 1).val, idx2_lt1 j⟩ : ℝ) : EReal)

theorem lift2_ix2 {a b : ℕ} (A : Fin a → Fin b → ℝ) (p : Fin a) (c : Fin b) :
    lift2 A (ix2 p c) = ((A p c : ℝ) : EReal) := rfl

/-- An array all of whose entries are real is the array of a real matrix: the matrix of its entries' real parts. -/
theorem eq_lift2 {a b : ℕ} (x : FVec Ideal ⟨2, ![a, b]⟩ .f32) (h : ∀ i, ∃ r : ℝ, x i = (r : EReal)) :
    x = lift2 (fun p c => (x (ix2 p c)).toReal) := by
  funext j
  obtain ⟨r, hr⟩ := h j
  have e : ix2 (⟨(j 0).val, idx2_lt0 j⟩ : Fin a) (⟨(j 1).val, idx2_lt1 j⟩ : Fin b) = j :=
    funext fun d => match d with | ⟨0, _⟩ => rfl | ⟨1, _⟩ => rfl
  show x j = (((x (ix2 (⟨(j 0).val, idx2_lt0 j⟩ : Fin a) (⟨(j 1).val, idx2_lt1 j⟩ : Fin b))).toReal : ℝ) : EReal)
  rw [e, hr, EReal.toReal_coe]

/-- A finite sum of reals, embedded term by term, is the embedded sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The embedding of ℝ is monotone, so it commutes with a maximum. -/
theorem coe_max (a b : ℝ) : ((max a b : ℝ) : EReal) = max (a : EReal) (b : EReal) :=
  EReal.coe_strictMono.monotone.map_max

/-! ## Entry-by-entry operations -/

theorem mulf_lift2 {a b : ℕ} (A B : Fin a → Fin b → ℝ) :
    mulf (lift2 A) (lift2 B) = lift2 (fun p c => A p c * B p c) :=
  funext fun _ => (EReal.coe_mul _ _).symm

theorem addf_lift2 {a b : ℕ} (A B : Fin a → Fin b → ℝ) :
    addf (lift2 A) (lift2 B) = lift2 (fun p c => A p c + B p c) :=
  funext fun _ => (EReal.coe_add _ _).symm

theorem maximumf_lift2 {a b : ℕ} (A B : Fin a → Fin b → ℝ) :
    maximumf (lift2 A) (lift2 B) = lift2 (fun p c => max (A p c) (B p c)) :=
  funext fun _ => (coe_max _ _).symm

/-! ## Matrix products -/

/-- A plain product on the device, into a zero accumulator. -/
theorem matmul_lift2 {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (A : Fin M → Fin K → ℝ) (B : Fin K → Fin N → ℝ) :
    FloatOps.matmul D none (lift2 A) (lift2 B) (constant (F := Ideal) ⟨2, ![M, N]⟩ .f32 0x00000000#32)
      = lift2 (Model.mm A B) := by
  funext j
  obtain ⟨p, c, rfl⟩ : ∃ (p : Fin M) (c : Fin N), j = ix2 p c := ⟨j 0, j 1, eq_ix2 j⟩
  rw [Cert.PlainProduct.matmul_zero_entry D hr hs hl0 hl1 hr0 hr1]
  show (∑ k : Fin K, ((A p k : ℝ) : EReal) * ((B k c : ℝ) : EReal)) = ((∑ k : Fin K, A p k * B k c : ℝ) : EReal)
  rw [← coe_sum]
  exact Finset.sum_congr rfl fun k _ => (EReal.coe_mul _ _).symm

/-- A product on the device contracting the rows of both operands, into a zero accumulator. -/
theorem matmul_rows_lift2 {K M N : ℕ} (D : DotDims ⟨2, ![K, M]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (q ⟨0, by omega⟩).val)
    (hl1 : ∀ (j : (⟨2, ![M, N]⟩ : Shape).Idx) (q : D.contr.Idx), (D.lhsIdx j q (1 : Fin 2)).val = (j (0 : Fin 2)).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (A : Fin K → Fin M → ℝ) (B : Fin K → Fin N → ℝ) :
    FloatOps.matmul D none (lift2 A) (lift2 B) (constant (F := Ideal) ⟨2, ![M, N]⟩ .f32 0x00000000#32)
      = lift2 (Model.mmT A B) := by
  funext j
  obtain ⟨p, c, rfl⟩ : ∃ (p : Fin M) (c : Fin N), j = ix2 p c := ⟨j 0, j 1, eq_ix2 j⟩
  rw [Cert.RowsProduct.matmul_zero_rows_entry D hr hs hl0 hl1 hr0 hr1]
  show (∑ k : Fin K, ((A k p : ℝ) : EReal) * ((B k c : ℝ) : EReal)) = ((∑ k : Fin K, A k p * B k c : ℝ) : EReal)
  rw [← coe_sum]
  exact Finset.sum_congr rfl fun k _ => (EReal.coe_mul _ _).symm

/-- A plain product on the host. -/
theorem dotGeneral_lift2 {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    (A : Fin M → Fin K → ℝ) (B : Fin K → Fin N → ℝ) :
    Host.dotGeneral (F := Ideal) D none (lift2 A) (lift2 B) = lift2 (Model.mm A B) := by
  funext j
  obtain ⟨p, c, rfl⟩ : ∃ (p : Fin M) (c : Fin N), j = ix2 p c := ⟨j 0, j 1, eq_ix2 j⟩
  rw [Cert.HostProduct.dotGeneral_entry D hr hs hl0 hl1 hr0 hr1]
  show (∑ k : Fin K, ((A p k : ℝ) : EReal) * ((B k c : ℝ) : EReal)) = ((∑ k : Fin K, A p k * B k c : ℝ) : EReal)
  rw [← coe_sum]
  exact Finset.sum_congr rfl fun k _ => (EReal.coe_mul _ _).symm

end Cert.IdealReal

end
-- ==== Proof.Consts.lean ====
/-
  The three float literals the two programs' arithmetic depends on, as the real numbers their bit patterns denote.

  0.25 is exactly 1/4. The reference floors a row's norm at the single-precision number nearest 10⁻⁸, which is exactly
  δ = 11258999 / 2⁵⁰. The kernel floors the row's sum of squares at a constant the certificate names as δ·δ =
  126765058482001 / 2¹⁰⁰, so that flooring the sum of squares there is flooring the norm at δ.
-/
import Idealize.ShloMosaic.PureOps.Ideal
import Idealize.ShloMosaic.PureOps.Ideal.Laws

noncomputable section

namespace Cert.Consts

open Idealize.ShloMosaic

/-- The reference's floor on a row's norm. -/
def δ : ℝ := 11258999 / 1125899906842624

theorem δ_pos : 0 < δ := by unfold δ; norm_num

/-- The named square of that floor, as the certificate's table spells it. -/
theorem δ_sq : (126765058482001 / 1267650600228229401496703205376 : ℝ) = δ * δ := by unfold δ; norm_num

/-- The pattern of 0.25 denotes 1/4. -/
theorem ofBits_quarter : Ideal.ofBits .f32 0x3E800000#32 = ((1 / 4 : ℝ) : EReal) := by
  simp [Ideal.ofBits, Ideal.ieee, -EReal.coe_mul]; norm_num

/-- The pattern of the reference's norm floor denotes δ. -/
theorem ofBits_floor : Ideal.ofBits .f32 0x322BCC77#32 = ((δ : ℝ) : EReal) := by
  unfold δ
  simp [Ideal.ofBits, Ideal.ieee, -EReal.coe_mul]; norm_num

/-- The zero pattern denotes 0. -/
theorem ofBits_zero : Ideal.ofBits .f32 0x00000000#32 = ((0 : ℝ) : EReal) := by
  rw [Ideal.ofBits_zero_f32]; rfl

end Cert.Consts

end
-- ==== Proof.KernelLift.lean ====
/-
  The kernel's arithmetic on real matrices.

  With real inputs every value the kernel body forms is the array of a real matrix. The unit rows: the lane reduction
  gives each row's sum of squares, the floor at the named constant δ·δ keeps it positive, and the inverse square root of a
  positive real is the real (√·)⁻¹; the column of these scales every row. Each of the seven products is a finite sum of
  products of reals; the bias row is repeated down the rows; the rectifier is a maximum of two reals. Composing these
  stage by stage turns the body's three results into the arrays of the real matrices of Model.
-/
import proofs.«143789_g1949915153217_cont_sun_m_781_11_alg».proof.Proof.Gen.KernelIdeal.Skeleton
import proofs.«143789_g1949915153217_cont_sun_m_781_11_alg».proof.Proof.KTerm
import proofs.«143789_g1949915153217_cont_sun_m_781_11_alg».proof.Proof.IdealReal
import proofs.«143789_g1949915153217_cont_sun_m_781_11_alg».proof.Proof.Consts
import Idealize.ShloMosaic.PureOps.IdealRules

noncomputable section

namespace Cert.KernelIdeal.KLift

open Cert.KernelIdeal Cert.KernelIdeal.Gen Idealize.ShloMosaic Idealize.ShloMosaic.ValueIdx Cert.IdealReal Cert.Model

/-- The kernel's named floor is the real δ·δ. -/
theorem floor_sq_val :
    Named.named (F := Ideal) κ "floor_sq" (φ := .f32) 0x24E69595#32 = ((Cert.Consts.δ * Cert.Consts.δ : ℝ) : EReal) := by
  rw [← Cert.Consts.δ_sq]
  exact IdealRules.named_const.ideal_named_scalar _ _ _ _ rfl

/-- Inserting coordinate k on the lane axis over row p is the matrix index (p, k). -/
theorem lift_idx (p : Fin 4096) (k : Fin 128) : reduces_S4096x128_S4096.lift (ix1 p) k = ix2 p k := by
  funext c
  apply Fin.ext
  match c with
  | ⟨0, _⟩ => rfl
  | ⟨1, _⟩ => rfl

/-- The lane reduction of the entrywise square: each row's sum of squares. -/
theorem rowSums (X : Fin 4096 → Fin 128 → ℝ) (p : Fin 4096) :
    multiReduction .add [1] S4096 (mulf (lift2 X) (lift2 X)) 0x00000000#32 reduces_S4096x128_S4096 (.inl rfl) rfl (ix1 p)
      = ((∑ k : Fin 128, X p k * X p k : ℝ) : EReal) := by
  refine (Ideal.multiReduction_add_single (mulf (lift2 X) (lift2 X)) 0x00000000#32 reduces_S4096x128_S4096 (.inl rfl) rfl (ix1 p)).trans ?_
  rw [← coe_sum]
  refine Finset.sum_congr rfl fun k _ => ?_
  show mulf (lift2 X) (lift2 X) (reduces_S4096x128_S4096.lift (ix1 p) k) = _
  rw [lift_idx p k]
  exact (EReal.coe_mul _ _).symm

/-- The unit rows: x times the column of inverse square roots of the floored sums of squares. -/
theorem unitRows_lift (X : Fin 4096 → Fin 128 → ℝ) (ε : ℝ) (hε : 0 < ε) :
    mulf (lift2 X) (broadcastTo S4096x128 (rsqrt (maximumf (shapeCast S4096x1 (multiReduction .add [1] S4096 (mulf (lift2 X) (lift2 X)) 0x00000000#32 reduces_S4096x128_S4096 (.inl rfl) rfl) shapeCasts_S4096_S4096x1) (broadcast S4096x1 (((ε : ℝ) : EReal) : Ideal .f32)))) broadcasts_S4096x1_S4096x128)
      = lift2 (unitRowsK ε X) := by
  funext j
  obtain ⟨p, c, rfl⟩ : ∃ (p : Fin 4096) (c : Fin 128), j = ix2 p c := ⟨j 0, j 1, eq_ix2 j⟩
  rw [mulf_apply, lift2_ix2, lift2_ix2]
  rw [broadcastTo_apply _ broadcasts_S4096x1_S4096x128 (ix2 p c) (ix2 p (0 : Fin 1)) (fun a => match a with
    | ⟨0, _⟩ => by show p.val = if (4096 : ℕ) = 1 then 0 else p.val; rw [if_neg (by decide)]
    | ⟨1, _⟩ => by show (0 : ℕ) = if (1 : ℕ) = 1 then 0 else c.val; rw [if_pos rfl])]
  show ((X p c : ℝ) : EReal) * Ideal.rsqrt (max (shapeCast S4096x1 _ shapeCasts_S4096_S4096x1 (ix2 p (0 : Fin 1))) ((ε : ℝ) : EReal)) = _
  rw [shapeCast_apply _ shapeCasts_S4096_S4096x1 (ix2 p (0 : Fin 1)) (ix1 p) (by
    rw [Shape.rowMajor_val_one, Shape.rowMajor_val_two]; show p.val = p.val * 1 + 0; omega)]
  rw [rowSums X p, ← coe_max, Ideal.rsqrt_coe]
  have hpos : 0 < max (∑ k : Fin 128, X p k * X p k) ε := lt_max_of_lt_right hε
  rw [if_neg (not_lt.2 hpos.le), if_neg hpos.ne', ← EReal.coe_mul]
  rfl

/-- A 4096 × 128 by 128 × 128 product. -/
theorem mm_tall (A : Fin 4096 → Fin 128 → ℝ) (B : Fin 128 → Fin 128 → ℝ) :
    matmul dot_S4096x128_S128x128_S4096x128_1_0_0_1_n_n none (lift2 A) (lift2 B) (constant S4096x128 .f32 0x00000000#32)
      = lift2 (mm A B) :=
  matmul_lift2 dot_S4096x128_S128x128_S4096x128_1_0_0_1_n_n rfl rfl (fun _ _ => rfl) (fun _ _ => rfl) (fun _ _ => rfl) (fun _ _ => rfl) A B

/-- A 128 × 128 by 128 × 128 product. -/
theorem mm_square (A : Fin 128 → Fin 128 → ℝ) (B : Fin 128 → Fin 128 → ℝ) :
    matmul dot_S128x128_S128x128_S128x128_1_0_0_1_n_n none (lift2 A) (lift2 B) (constant S128x128 .f32 0x00000000#32)
      = lift2 (mm A B) :=
  matmul_lift2 dot_S128x128_S128x128_S128x128_1_0_0_1_n_n rfl rfl (fun _ _ => rfl) (fun _ _ => rfl) (fun _ _ => rfl) (fun _ _ => rfl) A B

/-- The product contracting the 4096 rows of both operands. -/
theorem mm_rows (A : Fin 4096 → Fin 128 → ℝ) (B : Fin 4096 → Fin 128 → ℝ) :
    matmul dot_S4096x128_S4096x128_S128x128_0_0_1_1_n_n none (lift2 A) (lift2 B) (constant S128x128 .f32 0x00000000#32)
      = lift2 (mmT A B) :=
  matmul_rows_lift2 dot_S4096x128_S4096x128_S128x128_0_0_1_1_n_n rfl rfl (fun _ _ => rfl) (fun _ _ => rfl) (fun _ _ => rfl) (fun _ _ => rfl) A B

/-- A 1 × 128 row repeated down the 4096 rows. -/
theorem downRows_lift (R : Fin 1 → Fin 128 → ℝ) :
    broadcastTo S4096x128 (shapeCast S1x128 (lift2 R) shapeCasts_S1x128_S1x128) broadcasts_S1x128_S4096x128
      = lift2 (fun (_ : Fin 4096) c => R 0 c) := by
  rw [shapeCast_self]
  funext j
  obtain ⟨p, c, rfl⟩ : ∃ (p : Fin 4096) (c : Fin 128), j = ix2 p c := ⟨j 0, j 1, eq_ix2 j⟩
  rw [broadcastTo_1b_ab_apply]
  rfl

/-- The rectifier as the kernel writes it: the maximum of v and v/4. -/
theorem leaky_lift (V : Fin 4096 → Fin 128 → ℝ) :
    maximumf (lift2 V) (mulf (broadcast S4096x128 (Scalar.ofBits (F := Ideal) .f32 0x3E800000#32)) (lift2 V))
      = lift2 (fun p c => leakyK (1 / 4) (V p c)) := by
  funext j
  obtain ⟨p, c, rfl⟩ : ∃ (p : Fin 4096) (c : Fin 128), j = ix2 p c := ⟨j 0, j 1, eq_ix2 j⟩
  show max ((V p c : ℝ) : EReal) (Ideal.ofBits .f32 0x3E800000#32 * ((V p c : ℝ) : EReal)) = ((leakyK (1 / 4) (V p c) : ℝ) : EReal)
  rw [Cert.Consts.ofBits_quarter, ← EReal.coe_mul, ← coe_max]
  rfl

/-- The kernel's unit rows of a real matrix: the sum of squares floored at δ·δ. -/
def units (X : Fin 4096 → Fin 128 → ℝ) : Fin 4096 → Fin 128 → ℝ :=
  unitRowsK (Cert.Consts.δ * Cert.Consts.δ) X

/-- The third layer before its bias and rectifier: U·((Uᵀ·H₂)·W₃), H₁ and H₂ the first two layers. -/
theorem pre3_lift (X : Fin 4096 → Fin 128 → ℝ) (W1 W2 W3 : Fin 128 → Fin 128 → ℝ) (β1 β2 : Fin 128 → ℝ) :
    k0_pay3 (F := Ideal) (lift2 X) (lift2 W1) (lift2 (fun (_ : Fin 1) c => β1 c)) (lift2 W2)
        (lift2 (fun (_ : Fin 1) c => β2 c)) (lift2 W3)
      = lift2 (mm (units X) (mm (mmT (units X)
          (layerK (1 / 4) (units X) (layerK (1 / 4) (units X) X W1 β1) W2 β2)) W3)) := by
  unfold k0_pay3
  simp only [floor_sq_val, fun Y => unitRows_lift Y _ (mul_pos Cert.Consts.δ_pos Cert.Consts.δ_pos),
    mm_rows, mm_square, mm_tall, downRows_lift, addf_lift2, leaky_lift]
  rfl

/-- The hidden result from the third layer's product P and the third bias row: leaky(P + β). -/
theorem hidden_lift (P : Fin 4096 → Fin 128 → ℝ) (β : Fin 128 → ℝ) :
    k0_pay1 (F := Ideal) (lift2 P) (lift2 (fun (_ : Fin 1) c => β c))
      = lift2 (fun p c => leakyK (1 / 4) (P p c + β c)) := by
  unfold k0_pay1
  simp only [downRows_lift, addf_lift2, leaky_lift]

/-- The output: the hidden result times the classifier weights, plus the classifier's bias row. -/
theorem output_lift (P : Fin 4096 → Fin 128 → ℝ) (β : Fin 128 → ℝ) (Wc : Fin 128 → Fin 128 → ℝ) (βc : Fin 128 → ℝ) :
    k0_pay2 (F := Ideal) (lift2 P) (lift2 (fun (_ : Fin 1) c => β c)) (lift2 Wc) (lift2 (fun (_ : Fin 1) c => βc c))
      = lift2 (classify (fun p c => leakyK (1 / 4) (P p c + β c)) Wc βc) := by
  unfold k0_pay2
  rw [hidden_lift]
  simp only [mm_tall, downRows_lift, addf_lift2]
  rfl

end Cert.KernelIdeal.KLift

end
-- ==== Proof.RefLift.lean ====
/-
  The reference's arithmetic on real matrices.

  With real inputs every stage of the reference is the array of a real matrix. A row's norm is the square root of a
  nonnegative real; the floor δ is positive, so the quotient of a real by max(norm, δ) is a real product with the
  reciprocal; the Gram matrix is the product of the unit rows with their transpose; each layer is two real products, the
  bias row repeated down the rows, and the rectifier by cases on the sign. Composing these stage by stage turns the
  reference's two results into the arrays of the real matrices of Model.
-/
import proofs.«143789_g1949915153217_cont_sun_m_781_11_alg».proof.Proof.RefTerm
import proofs.«143789_g1949915153217_cont_sun_m_781_11_alg».proof.Proof.IdealReal
import proofs.«143789_g1949915153217_cont_sun_m_781_11_alg».proof.Proof.Consts

noncomputable section

namespace Cert.ReferenceIdeal.RLift

open Cert.ReferenceIdeal Cert.ReferenceIdeal.Gen Cert.ReferenceIdeal.RefTerm Idealize.ShloMosaic Idealize.ShloMosaic.ValueIdx Cert.IdealReal Cert.Model

/-- Summing a row is a reduction over the second axis. -/
theorem sumRows : S4096x128.Reduces [1] S4096 := by decide

/-- Inserting coordinate k on the second axis over row p is the matrix index (p, k). -/
theorem lift_idx (p : Fin 4096) (k : Fin 128) : sumRows.lift (ix1 p) k = ix2 p k := by
  funext c
  apply Fin.ext
  match c with
  | ⟨0, _⟩ => rfl
  | ⟨1, _⟩ => rfl

theorem hostSqrt_apply {s : Shape} (v : FVec Ideal s .f32) (i : s.Idx) : Host.sqrt v i = Ideal.sqrt (v i) := rfl

/-- A row's norm: the square root of its sum of squares. -/
theorem rowNorm_entry (X : Fin 4096 → Fin 128 → ℝ) (p : Fin 4096) :
    rowNorm (F := Ideal) (lift2 X) (ix2 p (0 : Fin 1)) = ((Real.sqrt (∑ k : Fin 128, X p k * X p k) : ℝ) : EReal) := by
  unfold rowNorm
  rw [hostSqrt_apply, Cert.HostLayout.broadcastInDim_a_a1_apply, hostReduceAdd_apply,
    Ideal.hostReduceAdd_single reducesTo_S4096x128_S4096_d1 sumRows]
  have e : (∑ k : Fin (S4096x128.size 1), mulf (lift2 X) (lift2 X) (sumRows.lift (ix1 p) k))
      = ((∑ k : Fin 128, X p k * X p k : ℝ) : EReal) := by
    rw [← coe_sum]
    refine Finset.sum_congr rfl fun k _ => ?_
    show mulf (lift2 X) (lift2 X) (sumRows.lift (ix1 p) k) = _
    rw [lift_idx p k]
    exact (EReal.coe_mul _ _).symm
  rw [e, constant_apply, Cert.Consts.ofBits_zero, ← EReal.coe_add, zero_add, Ideal.sqrt_coe,
    if_neg (not_lt.2 (Finset.sum_nonneg fun k _ => mul_self_nonneg _))]

/-- The unit rows: x divided by the floored norm. -/
theorem unitRows_lift (X : Fin 4096 → Fin 128 → ℝ) :
    unitRows (F := Ideal) (lift2 X) = lift2 (unitRowsR Cert.Consts.δ X) := by
  funext j
  obtain ⟨p, c, rfl⟩ : ∃ (p : Fin 4096) (c : Fin 128), j = ix2 p c := ⟨j 0, j 1, eq_ix2 j⟩
  unfold unitRows
  rw [hostDivf_apply, Cert.HostLayout.broadcastInDim_a1_ab_apply, maximumf_apply, rowNorm_entry,
    Cert.HostLayout.broadcastInDim_scalar_apply, constant_apply, Cert.Consts.ofBits_floor, ← coe_max, lift2_ix2]
  have hpos : 0 < max (Real.sqrt (∑ k : Fin 128, X p k * X p k)) Cert.Consts.δ := lt_max_of_lt_right Cert.Consts.δ_pos
  rw [Ideal.div_coe hpos.ne', ← EReal.coe_mul]
  rfl

/-- The transpose of the array of a real matrix. -/
theorem transpose_lift (U : Fin 4096 → Fin 128 → ℝ) :
    transpose S128x4096 [1, 0] (lift2 U) transposes_S4096x128_S128x4096_1_0 = lift2 (fun (c : Fin 128) (p : Fin 4096) => U p c) := by
  funext j
  obtain ⟨c, p, rfl⟩ : ∃ (c : Fin 128) (p : Fin 4096), j = ix2 c p := ⟨j 0, j 1, eq_ix2 j⟩
  rw [transpose_ix2_apply]
  rfl

/-- The Gram matrix of the unit rows. -/
theorem gram_lift (X : Fin 4096 → Fin 128 → ℝ) :
    RefTerm.gram (F := Ideal) (lift2 X) = lift2 (Model.gram (unitRowsR Cert.Consts.δ X)) := by
  unfold RefTerm.gram
  rw [unitRows_lift, transpose_lift,
    dotGeneral_lift2 dot_S4096x128_S128x4096_S4096x4096_1_0_0_1_n_n rfl rfl (fun _ _ => rfl) (fun _ _ => rfl) (fun _ _ => rfl) (fun _ _ => rfl)]
  rfl

/-- A 4096 × 128 by 128 × 128 product on the host. -/
theorem mm_tall (A : Fin 4096 → Fin 128 → ℝ) (B : Fin 128 → Fin 128 → ℝ) :
    Host.dotGeneral (F := Ideal) dot_S4096x128_S128x128_S4096x128_1_0_0_1_n_n none (lift2 A) (lift2 B) = lift2 (mm A B) :=
  dotGeneral_lift2 dot_S4096x128_S128x128_S4096x128_1_0_0_1_n_n rfl rfl (fun _ _ => rfl) (fun _ _ => rfl) (fun _ _ => rfl) (fun _ _ => rfl) A B

/-- A 4096 × 4096 by 4096 × 128 product on the host. -/
theorem mm_wide (A : Fin 4096 → Fin 4096 → ℝ) (B : Fin 4096 → Fin 128 → ℝ) :
    Host.dotGeneral (F := Ideal) dot_S4096x4096_S4096x128_S4096x128_1_0_0_1_n_n none (lift2 A) (lift2 B) = lift2 (mm A B) :=
  dotGeneral_lift2 dot_S4096x4096_S4096x128_S4096x128_1_0_0_1_n_n rfl rfl (fun _ _ => rfl) (fun _ _ => rfl) (fun _ _ => rfl) (fun _ _ => rfl) A B

/-- A 1 × 128 row repeated down the 4096 rows. -/
theorem downRows_lift (R : Fin 1 → Fin 128 → ℝ) :
    downRows (F := Ideal) (lift2 R) = lift2 (fun (_ : Fin 4096) c => R 0 c) := by
  funext j
  obtain ⟨p, c, rfl⟩ : ∃ (p : Fin 4096) (c : Fin 128), j = ix2 p c := ⟨j 0, j 1, eq_ix2 j⟩
  unfold downRows
  rw [Cert.HostLayout.broadcastInDim_1b_ab_apply]
  rfl

/-- The rectifier as the reference writes it: by cases on the sign. -/
theorem leaky_lift (Q : Fin 4096 → Fin 128 → ℝ) :
    leaky (F := Ideal) (lift2 Q) = lift2 (fun p c => leakyR (1 / 4) (Q p c)) := by
  funext j
  obtain ⟨p, c, rfl⟩ : ∃ (p : Fin 4096) (c : Fin 128), j = ix2 p c := ⟨j 0, j 1, eq_ix2 j⟩
  unfold leaky
  rw [select_apply, cmpf_apply, mulf_apply, Cert.HostLayout.broadcastInDim_scalar_apply, Cert.HostLayout.broadcastInDim_scalar_apply,
    constant_apply, lift2_ix2, lift2_ix2]
  show Scalar.select (Ideal.cmp .oge ((Q p c : ℝ) : EReal) (Ideal.ofBits .f32 0x00000000#32)) ((Q p c : ℝ) : EReal)
      (Ideal.ofBits .f32 0x3E800000#32 * ((Q p c : ℝ) : EReal)) = ((leakyR (1 / 4) (Q p c) : ℝ) : EReal)
  rw [Cert.Consts.ofBits_zero, Cert.Consts.ofBits_quarter, ← EReal.coe_mul]
  unfold leakyR Ideal.cmp
  by_cases h : 0 ≤ Q p c
  · have : decide (((0 : ℝ) : EReal) ≤ ((Q p c : ℝ) : EReal)) = true := decide_eq_true (EReal.coe_le_coe_iff.2 h)
    simp only [this, if_pos h]
    exact select_one _ _
  · have : decide (((0 : ℝ) : EReal) ≤ ((Q p c : ℝ) : EReal)) = false := decide_eq_false (fun hh => h (EReal.coe_le_coe_iff.1 hh))
    simp only [this, if_neg h]
    exact select_zero _ _

/-- One layer on real matrices, given the Gram matrix of the unit rows U and the bias's real row β. -/
theorem layer_lift (U : Fin 4096 → Fin 128 → ℝ) (H : Fin 4096 → Fin 128 → ℝ) (W : Fin 128 → Fin 128 → ℝ)
    (b : FVec Ideal S2x128x128 .f32) (β : Fin 128 → ℝ) (hb : biasRow (F := Ideal) b = lift2 (fun (_ : Fin 1) c => β c)) :
    layer (F := Ideal) (lift2 (Model.gram U)) (lift2 H) (lift2 W) b = lift2 (layerR (1 / 4) U H W β) := by
  unfold layer
  rw [hb, mm_tall, mm_wide, downRows_lift, addf_lift2, leaky_lift]
  rfl

end Cert.ReferenceIdeal.RLift

end
-- ==== Proof.BiasRows.lean ====
/-
  The bias rows both programs use, read at an entry.

  Each layer's bias is a 2 × 128 × 128 array of which only row 0 of plane 0 is used: the surrounding program slices out
  the 1 × 1 × 128 corner, reshapes it to a vector of 128 entries and places it as a 1 × 128 row. Entry (0, c) of that row
  is entry (0, 0, c) of the bias. The classifier's bias is a vector placed as a row the same way. When the bias entries
  are real numbers, so is the row: it is the array of the real row of their values.
-/
import proofs.«143789_g1949915153217_cont_sun_m_781_11_alg».proof.Proof.IdealReal

noncomputable section

namespace Cert.BiasRows

open Idealize.ShloMosaic Idealize.ShloMosaic.ValueIdx Cert.IdealReal

/-- Entry (u, c) of the row cut from a layer's bias is the bias at (0, 0, c). -/
theorem biasRow_entry (b : FVec Ideal ⟨3, ![2, 128, 128]⟩ .f32)
    (h1 : (⟨1, ![128]⟩ : Shape).BroadcastsInDim ⟨2, ![1, 128]⟩ ![1])
    (h2 : (⟨3, ![2, 128, 128]⟩ : Shape).Slices ![0, 0, 0] ⟨3, ![1, 1, 128]⟩)
    (h3 : (⟨3, ![1, 1, 128]⟩ : Shape).ShapeCasts ⟨1, ![128]⟩) (u : Fin 1) (c : Fin 128) :
    broadcastInDim ⟨2, ![1, 128]⟩ ![1] h1
        (shapeCast ⟨1, ![128]⟩ (extractStridedSlice ⟨3, ![1, 1, 128]⟩ ![0, 0, 0] b h2) h3) (ix2 u c)
      = b (ix3 (0 : Fin 2) (0 : Fin 128) c) := by
  rw [Cert.HostLayout.broadcastInDim_b_1b_apply]
  rw [shapeCast_apply _ h3 (ix1 c) (ix3 (0 : Fin 1) (0 : Fin 1) c) (by
    rw [Shape.rowMajor_val_three, Shape.rowMajor_val_one]
    show (0 * 1 + 0) * 128 + c.val = c.val
    omega)]
  exact extractStridedSlice_apply ![0, 0, 0] b h2 (ix3 (0 : Fin 1) (0 : Fin 1) c) (ix3 (0 : Fin 2) (0 : Fin 128) c)
    (fun a => match a with
      | ⟨0, _⟩ => rfl
      | ⟨1, _⟩ => rfl
      | ⟨2, _⟩ => by show c.val = 0 + c.val; omega)

/-- The real row of a bias whose entries are real. -/
def rowOf (b : FVec Ideal ⟨3, ![2, 128, 128]⟩ .f32) : Fin 128 → ℝ :=
  fun c => (b (ix3 (0 : Fin 2) (0 : Fin 128) c)).toReal

/-- The row cut from a bias with real entries is the array of its real row. -/
theorem biasRow_lift (b : FVec Ideal ⟨3, ![2, 128, 128]⟩ .f32) (hb : ∀ i, ∃ r : ℝ, b i = (r : EReal))
    (h1 : (⟨1, ![128]⟩ : Shape).BroadcastsInDim ⟨2, ![1, 128]⟩ ![1])
    (h2 : (⟨3, ![2, 128, 128]⟩ : Shape).Slices ![0, 0, 0] ⟨3, ![1, 1, 128]⟩)
    (h3 : (⟨3, ![1, 1, 128]⟩ : Shape).ShapeCasts ⟨1, ![128]⟩) :
    broadcastInDim ⟨2, ![1, 128]⟩ ![1] h1
        (shapeCast ⟨1, ![128]⟩ (extractStridedSlice ⟨3, ![1, 1, 128]⟩ ![0, 0, 0] b h2) h3)
      = lift2 (fun (_ : Fin 1) c => rowOf b c) := by
  funext j
  obtain ⟨u, c, rfl⟩ : ∃ (u : Fin 1) (c : Fin 128), j = ix2 u c := ⟨j 0, j 1, eq_ix2 j⟩
  rw [biasRow_entry, lift2_ix2]
  obtain ⟨r, hr⟩ := hb (ix3 (0 : Fin 2) (0 : Fin 128) c)
  unfold rowOf
  rw [hr, EReal.toReal_coe]

/-- The real row of a classifier bias whose entries are real. -/
def rowOfVec (bc : FVec Ideal ⟨1, ![128]⟩ .f32) : Fin 128 → ℝ := fun c => (bc (ix1 c)).toReal

/-- The classifier bias with real entries, placed as a row, is the array of its real row. -/
theorem classRow_lift (bc : FVec Ideal ⟨1, ![128]⟩ .f32) (hb : ∀ i, ∃ r : ℝ, bc i = (r : EReal))
    (h1 : (⟨1, ![128]⟩ : Shape).BroadcastsInDim ⟨2, ![1, 128]⟩ ![1]) :
    broadcastInDim ⟨2, ![1, 128]⟩ ![1] h1 bc = lift2 (fun (_ : Fin 1) c => rowOfVec bc c) := by
  funext j
  obtain ⟨u, c, rfl⟩ : ∃ (u : Fin 1) (c : Fin 128), j = ix2 u c := ⟨j 0, j 1, eq_ix2 j⟩
  rw [Cert.HostLayout.broadcastInDim_b_1b_apply, lift2_ix2]
  obtain ⟨r, hr⟩ := hb (ix1 c)
  unfold rowOfVec
  rw [hr, EReal.toReal_coe]

end Cert.BiasRows

end
-- ==== Proof.FiniteInputs.lean ====
/-
  The precondition of this certificate says that every float input is finite: for each of the nine argument arrays
  it compares the absolute value of every entry against +∞, takes the conjunction over all entries, and joins the nine
  answers by "and". Over the extended reals an entry whose absolute value lies strictly below +∞ is neither infinity,
  hence a real number. This file reads that fact back out of the precondition, array by array.
-/
import proofs.«143789_g1949915153217_cont_sun_m_781_11_alg».proof.Defs
import proofs.«143789_g1949915153217_cont_sun_m_781_11_alg».proof.Proof.Gen.Pre_finite_inputs
import Idealize.ShloMosaic.Lib.ReduceAll
import Idealize.ShloMosaic.Lib.IdealHost

noncomputable section

namespace Cert.FiniteInputs

open Idealize.ShloMosaic Idealize.SL.Sem Idealize.ShloMosaic.ValueIdx

/-- Every entry of the array is a real number (neither infinity). -/
def AllReal {S : Idealize.ShloMosaic.Shape} (a : S.Idx → EReal) : Prop := ∀ i, ∃ r : ℝ, a i = (r : EReal)

/-- The f32 word with exponent all ones, fraction zero and sign clear denotes +∞. -/
theorem ofBits_posInf : Ideal.ofBits .f32 0x7F800000#32 = (⊤ : EReal) := by simp [Ideal.ofBits, Ideal.ieee]

/-- An extended real whose absolute value max x (-x) is strictly below +∞ is a real number: at +∞ the maximum is
    +∞ itself, at -∞ it is -(-∞) = +∞, and neither is below +∞. -/
theorem real_of_abs_lt_top (x : EReal) (h : Ideal.cmp .olt (max x (-x)) (⊤ : EReal) = 1#1) : ∃ r : ℝ, x = (r : EReal) := by
  induction x using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- One array's test, for any shape: if the conjunction over ALL entries of "|x i| < +∞" is true, every entry is real. -/
theorem allReal_of_test {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (h0 : 0 < Cert.Pre_finite_inputs.S_.numel)
    (e : Host.reduce IntOp.andi
          (cmpf .olt (Host.absf (F := Ideal) x)
            (broadcastInDim S ![] hb (constant (F := Ideal) Cert.Pre_finite_inputs.S_ .f32 0x7F800000#32)))
          (constantI Cert.Pre_finite_inputs.S_ 1 1#1) hr h0 ix0 = 1#1) : AllReal x := by
  intro i
  have hi := Host.reduce_andi_all _ _ hr h0 ix0 e i
  rw [cmpf_apply, broadcastInDim_scalar_apply, constant_apply, ofBits_posInf] at hi
  exact real_of_abs_lt_top (x i) hi

/-- Under the precondition every argument array of the idealized kernel holds only real numbers. -/
theorem allReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg1))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8)) := by
  -- the precondition's value is an array over the scalar shape: read it at that shape's one index
  have e := congrFun (h c) ix0
  unfold Cert.Pre_finite_inputs.fn Cert.Pre_finite_inputs.fn_part1 Cert.Pre_finite_inputs.fn_part2 at e
  -- the nine per-array answers are joined by "and": a conjunction of one-bit words is 1 exactly when each is
  simp only [andi, IntOp.andi_eq_one] at e
  obtain ⟨⟨⟨⟨⟨⟨⟨⟨e0, e1⟩, e2⟩, e3⟩, e4⟩, e5⟩, e6⟩, e7⟩, e8⟩ := e
  exact ⟨allReal_of_test _ _ _ _ e0, allReal_of_test _ _ _ _ e1, allReal_of_test _ _ _ _ e2,
    allReal_of_test _ _ _ _ e3, allReal_of_test _ _ _ _ e4, allReal_of_test _ _ _ _ e5,
    allReal_of_test _ _ _ _ e6, allReal_of_test _ _ _ _ e7, allReal_of_test _ _ _ _ e8⟩

end Cert.FiniteInputs

end
-- ==== Proof.Bridge.lean ====
/-
  The two programs compute the same arrays when every input entry is a real number.

  Write the inputs as arrays of real matrices X, W₁, W₂, W₃, W_c and the bias rows as real rows β₁, β₂, β₃, β_c. The kernel's
  hidden result is then the array of three layers leaky(U·((Uᵀ·H)·W) + β) over the unit rows U of X with the sum of squares
  floored at δ·δ; the reference's is the array of three layers leaky((U'·U'ᵀ)·(H·W) + β) over the unit rows U' with the norm
  floored at δ. U = U' because the square root is monotone, the products agree because matrix multiplication is
  associative, and the two spellings of the rectifier agree because the slope 1/4 lies between 0 and 1. The outputs are
  the same classifier applied to equal hidden results.
-/
import proofs.«143789_g1949915153217_cont_sun_m_781_11_alg».proof.Proof.KernelLift
import proofs.«143789_g1949915153217_cont_sun_m_781_11_alg».proof.Proof.RefLift
import proofs.«143789_g1949915153217_cont_sun_m_781_11_alg».proof.Proof.BiasRows
import proofs.«143789_g1949915153217_cont_sun_m_781_11_alg».proof.Proof.FiniteInputs

noncomputable section

namespace Cert.Bridge

open Idealize.ShloMosaic Idealize.ShloMosaic.ValueIdx Cert.IdealReal Cert.Model Cert.BiasRows Cert.FiniteInputs

theorem quarter_nonneg : (0 : ℝ) ≤ 1 / 4 := by norm_num
theorem quarter_le_one : (1 / 4 : ℝ) ≤ 1 := by norm_num

/-- The hidden results agree. -/
theorem hidden_eq (x : FVec Ideal ⟨2, ![4096, 128]⟩ .f32) (w1 : FVec Ideal ⟨2, ![128, 128]⟩ .f32)
    (b1 : FVec Ideal ⟨3, ![2, 128, 128]⟩ .f32) (w2 : FVec Ideal ⟨2, ![128, 128]⟩ .f32)
    (b2 : FVec Ideal ⟨3, ![2, 128, 128]⟩ .f32) (w3 : FVec Ideal ⟨2, ![128, 128]⟩ .f32)
    (b3 : FVec Ideal ⟨3, ![2, 128, 128]⟩ .f32)
    (hx : AllReal x) (hw1 : AllReal w1) (hb1 : AllReal b1) (hw2 : AllReal w2) (hb2 : AllReal b2) (hw3 : AllReal w3)
    (hb3 : AllReal b3) :
    Cert.KernelIdeal.KTerm.hidden (F := Ideal) x w1 b1 w2 b2 w3 b3
      = Cert.ReferenceIdeal.RefTerm.hidden (F := Ideal) x w1 b1 w2 b2 w3 b3 := by
  obtain ⟨X, rfl⟩ : ∃ X, x = lift2 X := ⟨_, eq_lift2 x hx⟩
  obtain ⟨W1, rfl⟩ : ∃ W, w1 = lift2 W := ⟨_, eq_lift2 w1 hw1⟩
  obtain ⟨W2, rfl⟩ : ∃ W, w2 = lift2 W := ⟨_, eq_lift2 w2 hw2⟩
  obtain ⟨W3, rfl⟩ : ∃ W, w3 = lift2 W := ⟨_, eq_lift2 w3 hw3⟩
  have k1 : Cert.KernelIdeal.KTerm.biasRow (F := Ideal) b1 = lift2 (fun (_ : Fin 1) c => rowOf b1 c) := biasRow_lift b1 hb1 _ _ _
  have k2 : Cert.KernelIdeal.KTerm.biasRow (F := Ideal) b2 = lift2 (fun (_ : Fin 1) c => rowOf b2 c) := biasRow_lift b2 hb2 _ _ _
  have k3 : Cert.KernelIdeal.KTerm.biasRow (F := Ideal) b3 = lift2 (fun (_ : Fin 1) c => rowOf b3 c) := biasRow_lift b3 hb3 _ _ _
  have r1 : Cert.ReferenceIdeal.RefTerm.biasRow (F := Ideal) b1 = lift2 (fun (_ : Fin 1) c => rowOf b1 c) := biasRow_lift b1 hb1 _ _ _
  have r2 : Cert.ReferenceIdeal.RefTerm.biasRow (F := Ideal) b2 = lift2 (fun (_ : Fin 1) c => rowOf b2 c) := biasRow_lift b2 hb2 _ _ _
  have r3 : Cert.ReferenceIdeal.RefTerm.biasRow (F := Ideal) b3 = lift2 (fun (_ : Fin 1) c => rowOf b3 c) := biasRow_lift b3 hb3 _ _ _
  have hk : Cert.KernelIdeal.KTerm.hidden (F := Ideal) (lift2 X) (lift2 W1) b1 (lift2 W2) b2 (lift2 W3) b3
      = lift2 (layerK (1 / 4) (Cert.KernelIdeal.KLift.units X)
          (layerK (1 / 4) (Cert.KernelIdeal.KLift.units X) (layerK (1 / 4) (Cert.KernelIdeal.KLift.units X) X W1 (rowOf b1)) W2 (rowOf b2))
          W3 (rowOf b3)) := by
    unfold Cert.KernelIdeal.KTerm.hidden Cert.KernelIdeal.KTerm.pre3
    rw [k1, k2, k3, Cert.KernelIdeal.KLift.pre3_lift, Cert.KernelIdeal.KLift.hidden_lift]
    rfl
  have hr : Cert.ReferenceIdeal.RefTerm.hidden (F := Ideal) (lift2 X) (lift2 W1) b1 (lift2 W2) b2 (lift2 W3) b3
      = lift2 (layerR (1 / 4) (unitRowsR Cert.Consts.δ X)
          (layerR (1 / 4) (unitRowsR Cert.Consts.δ X) (layerR (1 / 4) (unitRowsR Cert.Consts.δ X) X W1 (rowOf b1)) W2 (rowOf b2))
          W3 (rowOf b3)) := by
    unfold Cert.ReferenceIdeal.RefTerm.hidden
    rw [Cert.ReferenceIdeal.RLift.gram_lift,
      Cert.ReferenceIdeal.RLift.layer_lift _ _ _ b1 (rowOf b1) r1,
      Cert.ReferenceIdeal.RLift.layer_lift _ _ _ b2 (rowOf b2) r2,
      Cert.ReferenceIdeal.RLift.layer_lift _ _ _ b3 (rowOf b3) r3]
  rw [hk, hr]
  unfold Cert.KernelIdeal.KLift.units
  rw [unitRowsK_eq Cert.Consts.δ Cert.Consts.δ_pos.le]
  simp only [layerK_eq (1 / 4) quarter_nonneg quarter_le_one]

/-- The outputs agree: one classifier applied to equal hidden results. -/
theorem output_eq (x : FVec Ideal ⟨2, ![4096, 128]⟩ .f32) (w1 : FVec Ideal ⟨2, ![128, 128]⟩ .f32)
    (b1 : FVec Ideal ⟨3, ![2, 128, 128]⟩ .f32) (w2 : FVec Ideal ⟨2, ![128, 128]⟩ .f32)
    (b2 : FVec Ideal ⟨3, ![2, 128, 128]⟩ .f32) (w3 : FVec Ideal ⟨2, ![128, 128]⟩ .f32)
    (b3 : FVec Ideal ⟨3, ![2, 128, 128]⟩ .f32) (wc : FVec Ideal ⟨2, ![128, 128]⟩ .f32) (bc : FVec Ideal ⟨1, ![128]⟩ .f32)
    (hx : AllReal x) (hw1 : AllReal w1) (hb1 : AllReal b1) (hw2 : AllReal w2) (hb2 : AllReal b2) (hw3 : AllReal w3)
    (hb3 : AllReal b3) (hwc : AllReal wc) (hbc : AllReal bc) :
    Cert.KernelIdeal.KTerm.output (F := Ideal) x w1 b1 w2 b2 w3 b3 wc bc
      = Cert.ReferenceIdeal.RefTerm.output (F := Ideal) (Cert.ReferenceIdeal.RefTerm.hidden (F := Ideal) x w1 b1 w2 b2 w3 b3) wc bc := by
  rw [← hidden_eq x w1 b1 w2 b2 w3 b3 hx hw1 hb1 hw2 hb2 hw3 hb3]
  obtain ⟨X, rfl⟩ : ∃ X, x = lift2 X := ⟨_, eq_lift2 x hx⟩
  obtain ⟨W1, rfl⟩ : ∃ W, w1 = lift2 W := ⟨_, eq_lift2 w1 hw1⟩
  obtain ⟨W2, rfl⟩ : ∃ W, w2 = lift2 W := ⟨_, eq_lift2 w2 hw2⟩
  obtain ⟨W3, rfl⟩ : ∃ W, w3 = lift2 W := ⟨_, eq_lift2 w3 hw3⟩
  obtain ⟨Wc, rfl⟩ : ∃ W, wc = lift2 W := ⟨_, eq_lift2 wc hwc⟩
  have k1 : Cert.KernelIdeal.KTerm.biasRow (F := Ideal) b1 = lift2 (fun (_ : Fin 1) c => rowOf b1 c) := biasRow_lift b1 hb1 _ _ _
  have k2 : Cert.KernelIdeal.KTerm.biasRow (F := Ideal) b2 = lift2 (fun (_ : Fin 1) c => rowOf b2 c) := biasRow_lift b2 hb2 _ _ _
  have k3 : Cert.KernelIdeal.KTerm.biasRow (F := Ideal) b3 = lift2 (fun (_ : Fin 1) c => rowOf b3 c) := biasRow_lift b3 hb3 _ _ _
  have kc : Cert.KernelIdeal.KTerm.classRow (F := Ideal) bc = lift2 (fun (_ : Fin 1) c => rowOfVec bc c) := classRow_lift bc hbc _
  have rc : ∀ h1 : (⟨1, ![128]⟩ : Shape).BroadcastsInDim ⟨2, ![1, 128]⟩ ![1],
      broadcastInDim ⟨2, ![1, 128]⟩ ![1] h1 bc = lift2 (fun (_ : Fin 1) c => rowOfVec bc c) := fun h1 => classRow_lift bc hbc h1
  unfold Cert.KernelIdeal.KTerm.output Cert.KernelIdeal.KTerm.hidden Cert.KernelIdeal.KTerm.pre3 Cert.ReferenceIdeal.RefTerm.output
  rw [k1, k2, k3, kc, rc, Cert.KernelIdeal.KLift.pre3_lift, Cert.KernelIdeal.KLift.output_lift, Cert.KernelIdeal.KLift.hidden_lift,
    Cert.ReferenceIdeal.RLift.mm_tall, Cert.ReferenceIdeal.RLift.downRows_lift, addf_lift2]
  rfl

end Cert.Bridge

end
-- ==== Proof.lean ====
/-
  A graph convolution network over a dense cosine-similarity adjacency: the kernel against its reference, on the extended
  reals.

  The reference scales each of the 4096 rows of x to unit length (the norm floored at a small δ), forms the 4096 × 4096
  Gram matrix g of the unit rows, and applies three layers h ↦ leaky(g·(h·W) + b) and a classifier h·W_c + b_c. The kernel
  never forms g: with U the unit rows it computes each layer as leaky(U·((Uᵀ·h)·W) + b), and it scales the rows by the
  inverse square root of the sum of squares floored at a constant the certificate names δ·δ.

  Under the precondition every input entry is a real number, so every intermediate value is real, and on real matrices
  the two computations agree: √(max(s, δ·δ)) = max(√s, δ), matrix multiplication is associative, and max(v, v/4) is v for
  v ≥ 0 and v/4 otherwise. The kernel's run ends with its two result arrays at its body's terms of the argument arrays
  (one grid point whose blocks are the whole arrays); the reference's run ends with its results at the composition of its
  operations; the two terms are equal arrays, index by index.
-/
import proofs.«143789_g1949915153217_cont_sun_m_781_11_alg».proof.Defs
import proofs.«143789_g1949915153217_cont_sun_m_781_11_alg».proof.Proof.Gen.Kernel
import proofs.«143789_g1949915153217_cont_sun_m_781_11_alg».proof.Proof.Gen.Kernel.Skeleton
import proofs.«143789_g1949915153217_cont_sun_m_781_11_alg».proof.Proof.Gen.Kernel.Launch
import proofs.«143789_g1949915153217_cont_sun_m_781_11_alg».proof.Proof.Gen.Kernel.Points
import proofs.«143789_g1949915153217_cont_sun_m_781_11_alg».proof.Proof.Gen.Kernel.Frame
import proofs.«143789_g1949915153217_cont_sun_m_781_11_alg».proof.Proof.Gen.KernelIdeal
import proofs.«143789_g1949915153217_cont_sun_m_781_11_alg».proof.Proof.Gen.KernelIdeal.Skeleton
import proofs.«143789_g1949915153217_cont_sun_m_781_11_alg».proof.Proof.Gen.KernelIdeal.Launch
import proofs.«143789_g1949915153217_cont_sun_m_781_11_alg».proof.Proof.Gen.KernelIdeal.Points
import proofs.«143789_g1949915153217_cont_sun_m_781_11_alg».proof.Proof.Gen.KernelIdeal.Frame
import proofs.«143789_g1949915153217_cont_sun_m_781_11_alg».proof.Proof.Gen.KernelIdeal.Value
import proofs.«143789_g1949915153217_cont_sun_m_781_11_alg».proof.Proof.Gen.ReferenceIdeal
import proofs.«143789_g1949915153217_cont_sun_m_781_11_alg».proof.Proof.Gen.Pre_finite_inputs
import proofs.«143789_g1949915153217_cont_sun_m_781_11_alg».proof.Proof.KernelValue
import proofs.«143789_g1949915153217_cont_sun_m_781_11_alg».proof.Proof.RefRun
import proofs.«143789_g1949915153217_cont_sun_m_781_11_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefRun.run (F := Ideal) m ρ)

/-- The one rewrite of the idealization: the kernel's floor on the sum of squares is read as δ·δ, the square of the
    reference's floor on the norm. -/
theorem preserves : Cert.preserves_Kernel_KernelIdeal :=
  IdealRules.named_const.statement Cert.KernelIdeal.κ "floor_sq" .f32 0x24E69595#32
    ((126765058482001 / 1267650600228229401496703205376 : ℝ) : EReal) rfl

/-- From memories agreeing on the arguments, all real, the two programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, Cert.KernelIdeal.KValue.run (F := Ideal) m ρ, ?_⟩
  refine (θ_run Cert.ReferenceIdeal.defs _ _).mono (fun r h c => ?_) (Cert.ReferenceIdeal.RefRun.run (F := Ideal) m' ρ')
  obtain ⟨a0, a1, a2, a3, a4, a5, a6, a7, a8⟩ := hagree c
  obtain ⟨r0, r1, r2, r3, r4, r5, r6, r7, r8⟩ := Cert.FiniteInputs.allReal_of_pre m hpre c
  refine ⟨(h c).1.trans ?_, (h c).2.1.trans ?_, (h c).2.2⟩
  · rw [a0, a1, a2, a3, a4, a5, a6, a7, a8]
    exact (Cert.Bridge.output_eq _ _ _ _ _ _ _ _ _ r0 r1 r2 r3 r4 r5 r6 r7 r8).symm
  · rw [a0, a1, a2, a3, a4, a5, a6]
    exact (Cert.Bridge.hidden_eq _ _ _ _ _ _ _ r0 r1 r2 r3 r4 r5 r6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
